-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x30 : Shape := ⟨2, ![200000, 30]⟩
abbrev S2x6400000 : Shape := ⟨2, ![2, 6400000]⟩
abbrev S30x32 : Shape := ⟨2, ![30, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S200000x30 : S_.BroadcastsInDim S200000x30 (![] : Fin 0 → Fin S200000x30.rank)
  reducesTo_S200000x30_S_d0_1 : S200000x30.ReducesTo [0, 1] S_
  h_S_ : 0 < S_.numel
  bcast_S_S30x32 : S_.BroadcastsInDim S30x32 (![] : Fin 0 → Fin S30x32.rank)
  reducesTo_S30x32_S_d0_1 : S30x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32x2 .f32) (main_arg6 : FVec F S2 .f32) (main_arg7 : FVec F S32x2 .f32) (main_v13 : IVec S_ 1) (main_v16 : IVec S30x32 1) : IVec S_ 1 :=
  let main_c_5 : IVec S_ 1 := constantI S_ 1 1#1
  let main_v17 : IVec S_ 1 := (fun x v => Host.reduce IntOp.andi x v reducesTo_S30x32_S_d0_1 h_S_) main_v16 main_c_5
  let main_v18 : IVec S_ 1 := andi main_v13 main_v17
  let main_v19 : FVec F S32x2 .f32 := Host.absf main_arg5
  let main_cst_6 : FVec F S_ .f32 := constant S_ .f32 0x7F800000#32
  let main_v20 : FVec F S32x2 .f32 := broadcastInDim S32x2 ![] bcast_S_S32x2 main_cst_6
  let main_v21 : IVec S32x2 1 := cmpf .olt main_v19 main_v20
  let main_c_7 : IVec S_ 1 := constantI S_ 1 1#1
  let main_v22 : IVec S_ 1 := (fun x v => Host.reduce IntOp.andi x v reducesTo_S32x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S32x2 .f32 := Host.absf main_arg7
  let main_cst_10 : FVec F S_ .f32 := constant S_ .f32 0x7F800000#32
  let main_v30 : FVec F S32x2 .f32 := broadcastInDim S32x2 ![] bcast_S_S32x2 main_cst_10
  let main_v31 : IVec S32x2 1 := cmpf .olt main_v29 main_v30
  let main_c_11 : IVec S_ 1 := constantI S_ 1 1#1
  let main_v32 : IVec S_ 1 := (fun x v => Host.reduce IntOp.andi x v reducesTo_S32x2_S_d0_1 h_S_) main_v31 main_c_11
  let main_v33 : IVec S_ 1 := andi main_v28 main_v32
  main_v33

def fn {F : FTy → Type} [FloatOps F] (main_arg0 : FVec F S200000x30 .f32) (main_arg1 : IVec S2x6400000 32) (main_arg2 : FVec F S30x32 .f32) (main_arg3 : FVec F S32 .f32) (main_arg4 : FVec F S30x32 .f32) (main_arg5 : FVec F S32x2 .f32) (main_arg6 : FVec F S2 .f32) (main_arg7 : FVec F S32x2 .f32) : IVec S_ 1 :=
  let main_v0 : FVec F S200000x30 .f32 := Host.absf main_arg0
  let main_cst : FVec F S_ .f32 := constant S_ .f32 0x7F800000#32
  let main_v1 : FVec F S200000x30 .f32 := broadcastInDim S200000x30 ![] bcast_S_S200000x30 main_cst
  let main_v2 : IVec S200000x30 1 := cmpf .olt main_v0 main_v1
  let main_c : IVec S_ 1 := constantI S_ 1 1#1
  let main_v3 : IVec S_ 1 := (fun x v => Host.reduce IntOp.andi x v reducesTo_S200000x30_S_d0_1 h_S_) main_v2 main_c
  let main_v4 : FVec F S30x32 .f32 := Host.absf main_arg2
  let main_cst_0 : FVec F S_ .f32 := constant S_ .f32 0x7F800000#32
  let main_v5 : FVec F S30x32 .f32 := broadcastInDim S30x32 ![] bcast_S_S30x32 main_cst_0
  let main_v6 : IVec S30x32 1 := cmpf .olt main_v4 main_v5
  let main_c_1 : IVec S_ 1 := constantI S_ 1 1#1
  let main_v7 : IVec S_ 1 := (fun x v => Host.reduce IntOp.andi x v reducesTo_S30x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S30x32 .f32 := Host.absf main_arg4
  let main_cst_4 : FVec F S_ .f32 := constant S_ .f32 0x7F800000#32
  let main_v15 : FVec F S30x32 .f32 := broadcastInDim S30x32 ![] bcast_S_S30x32 main_cst_4
  let main_v16 : IVec S30x32 1 := cmpf .olt main_v14 main_v15
  fn_part1 (F := F) main_arg5 main_arg6 main_arg7 main_v13 main_v16
-- ==== Kernel.lean ====
abbrev S200000x30 : Shape := ⟨2, ![200000, 30]⟩
abbrev S2x6400000 : Shape := ⟨2, ![2, 6400000]⟩
abbrev S30x32 : Shape := ⟨2, ![30, 32]⟩
abbrev S32 : Shape := ⟨1, ![32]⟩
abbrev S32x2 : Shape := ⟨2, ![32, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x1 : Shape := ⟨2, ![200000, 1]⟩
abbrev S6400000x30 : Shape := ⟨2, ![6400000, 30]⟩
abbrev S1x32 : Shape := ⟨2, ![1, 32]⟩
abbrev S200000x32 : Shape := ⟨2, ![200000, 32]⟩
abbrev S2000x30 : Shape := ⟨2, ![2000, 30]⟩
abbrev S2000x1 : Shape := ⟨2, ![2000, 1]⟩
abbrev S2000x32 : Shape := ⟨2, ![2000, 32]⟩
abbrev S6400000x32 : Shape := ⟨2, ![6400000, 32]⟩
abbrev S1x2 : Shape := ⟨2, ![1, 2]⟩
abbrev S200000x2 : Shape := ⟨2, ![200000, 2]⟩
abbrev S2000x2 : Shape := ⟨2, ![2000, 2]⟩
abbrev S2000 : Shape := ⟨1, ![2000]⟩

abbrev nBuf : Space → Nat
  | .hbm => 49
  | .vmem => 22
  | .smem => 0
  | _ => 0

abbrev bufTy : (tb : Table) → Fin (tcTables nBuf tb) → BufTy
  | .hbm, ⟨0, _⟩ => ⟨S200000x30, .f32⟩
  | .hbm, ⟨1, _⟩ => ⟨S2x6400000, .i32⟩
  | .hbm, ⟨2, _⟩ => ⟨S30x32, .f32⟩
  | .hbm, ⟨3, _⟩ => ⟨S32, .f32⟩
  | .hbm, ⟨4, _⟩ => ⟨S30x32, .f32⟩
  | .hbm, ⟨5, _⟩ => ⟨S32x2, .f32⟩
  | .hbm, ⟨6, _⟩ => ⟨S2, .f32⟩
  | .hbm, ⟨7, _⟩ => ⟨S32x2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S200000, .f32⟩
  | .hbm, ⟨16, _⟩ => ⟨S6400000x1, .i32⟩
  | .hbm, ⟨17, _⟩ => ⟨S200000, .f32⟩
  | .hbm, ⟨18, _⟩ => ⟨S200000x1, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x30, .f32⟩
  | .hbm, ⟨28, _⟩ => ⟨S_, .f32⟩
  | .hbm, ⟨29, _⟩ => ⟨S200000x30, .f32⟩
  | .hbm, ⟨30, _⟩ => ⟨S6400000x1, .i32⟩
  | .hbm, ⟨31, _⟩ => ⟨S200000x30, .f32⟩
  | .hbm, ⟨32, _⟩ => ⟨S1x32, .f32⟩
  | .hbm, ⟨33, _⟩ => ⟨S200000x32, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x32, .f32⟩
  | .hbm, ⟨43, _⟩ => ⟨S_, .f32⟩
  | .hbm, ⟨44, _⟩ => ⟨S200000x32, .f32⟩
  | .hbm, ⟨45, _⟩ => ⟨S6400000x1, .i32⟩
  | .hbm, ⟨46, _⟩ => ⟨S200000x32, .f32⟩
  | .hbm, ⟨47, _⟩ => ⟨S1x2, .f32⟩
  | .hbm, ⟨48, _⟩ => ⟨S200000x2, .f32⟩
  | .local _ .vmem, ⟨0, _⟩ => ⟨S2000x30, .f32⟩
  | .local _ .vmem, ⟨1, _⟩ => ⟨S2000x30, .f32⟩
  | .local _ .vmem, ⟨2, _⟩ => ⟨S2000x30, .f32⟩
  | .local _ .vmem, ⟨3, _⟩ => ⟨S2000x30, .f32⟩
  | .local _ .vmem, ⟨4, _⟩ => ⟨S2000x1, .f32⟩
  | .local _ .vmem, ⟨5, _⟩ => ⟨S2000x1, .f32⟩
  | .local _ .vmem, ⟨6, _⟩ => ⟨S30x32, .f32⟩
  | .local _ .vmem, ⟨7, _⟩ => ⟨S1x32, .f32⟩
  | .local _ .vmem, ⟨8, _⟩ => ⟨S30x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x1, .f32⟩
  | .local _ .vmem, ⟨16, _⟩ => ⟨S2000x1, .f32⟩
  | .local _ .vmem, ⟨17, _⟩ => ⟨S32x2, .f32⟩
  | .local _ .vmem, ⟨18, _⟩ => ⟨S1x2, .f32⟩
  | .local _ .vmem, ⟨19, _⟩ => ⟨S32x2, .f32⟩
  | .local _ .vmem, ⟨20, _⟩ => ⟨S2000x2, .f32⟩
  | .local _ .vmem, ⟨21, _⟩ => ⟨S2000x2, .f32⟩
  | _, _ => ⟨S200000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S30x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  shapeCasts_S200000_S200000x1 : S200000.ShapeCasts S200000x1
  bcast_S_S200000x30 : S_.BroadcastsInDim S200000x30 (![] : Fin 0 → Fin S200000x30.rank)
  shapeCasts_S32_S1x32 : S32.ShapeCasts S1x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x30_S2000x30_0_0 : ∀ a, (![0, 0] : Fin 2 → Nat) a + S2000x30.size a ≤ S2000x30.size a
  h_S2000x30 : 0 < S2000x30.numel
  shapeCasts_S2000x30_S2000x30 : S2000x30.ShapeCasts S2000x30
  broadcasts_S2000x1_S2000x30 : S2000x1.Broadcasts S2000x30
  bitsLt_bf16_f32 : FTy.bits .bf16 < FTy.bits .f32
  inb_S30x32_S30x32_0_0 : ∀ a, (![0, 0] : Fin 2 → Nat) a + S30x32.size a ≤ S30x32.size a
  h_S30x32 : 0 < S30x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  bcast_S_S200000x32 : S_.BroadcastsInDim S200000x32 (![] : Fin 0 → Fin S200000x32.rank)
  shapeCasts_S2_S1x2 : S2.ShapeCasts S1x2
  shapeCasts_S2000x32_S2000x32 : S2000x32.ShapeCasts S2000x32
  broadcasts_S2000x1_S2000x32 : S2000x1.Broadcasts S2000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S200000_S6400000x1_S6400000_n_0_0_1_wf : ScatterDims.WF S200000 S6400000x1 S6400000 [] [0] [0] 1
  gather_S200000x30_S6400000x1_S6400000x30_1_0_n_n_0_1_130_wf : GatherDims.WF S200000x30 S6400000x1 S6400000x30 [1] [0] [] [0] [] 1 ![1, 30]
  scatter_S200000x30_S6400000x1_S6400000x30_1_0_0_1_wf : ScatterDims.WF S200000x30 S6400000x1 S6400000x30 [1] [0] [0] 1
  dot_S2000x30_S30x32_S2000x32_1_0_0_1_n_n_wf : DotDims.WF S2000x30 S30x32 S2000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S2000x32_S32x2_S2000x2_1_0_0_1_n_n_wf : DotDims.WF S2000x32 S32x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x30.size a ≤ S200000x30.size a
  hwx0_0 : ∀ i : grid0.Coords, EltTy.bits .f32 = 32 ∨ (Rect.block (s := S200000x30) S2000x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x30.size a ≤ S200000x30.size a
  hwx0_1 : ∀ i : grid0.Coords, EltTy.bits .f32 = 32 ∨ (Rect.block (s := S200000x30) S2000x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .f32 = 32 ∨ (Rect.block (s := S200000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x32.size a ≤ S30x32.size a
  hwx0_3 : ∀ i : grid0.Coords, EltTy.bits .f32 = 32 ∨ (Rect.block (s := S30x32) S30x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S30x32.size a ≤ S30x32.size a
  hwx0_5 : ∀ i : grid0.Coords, EltTy.bits .f32 = 32 ∨ (Rect.block (s := S30x32) S30x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S200000x32.size a
  hwx0_6 : ∀ i : grid0.Coords, EltTy.bits .f32 = 32 ∨ (Rect.block (s := S200000x32) S2000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S200000x32.size a
  hwx1_0 : ∀ i : grid1.Coords, EltTy.bits .f32 = 32 ∨ (Rect.block (s := S200000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S200000x32.size a
  hwx1_1 : ∀ i : grid1.Coords, EltTy.bits .f32 = 32 ∨ (Rect.block (s := S200000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S200000x1.size a
  hwx1_2 : ∀ i : grid1.Coords, EltTy.bits .f32 = 32 ∨ (Rect.block (s := S200000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x2.size a ≤ S32x2.size a
  hwx1_3 : ∀ i : grid1.Coords, EltTy.bits .f32 = 32 ∨ (Rect.block (s := S32x2) S32x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x2.size a ≤ S32x2.size a
  hwx1_5 : ∀ i : grid1.Coords, EltTy.bits .f32 = 32 ∨ (Rect.block (s := S32x2) S32x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x2.size a ≤ S200000x2.size a
  hwx1_6 : ∀ i : grid1.Coords, EltTy.bits .f32 = 32 ∨ (Rect.block (s := S200000x2) S2000x2.size (cc1_transform_6 i) (hinb1_6 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x30_S6400000x1_S6400000x30_1_0_n_n_0_1_130 : GatherDims S200000x30 S6400000x1 S6400000x30 where
  offsetDims := [1]
  collapsedSliceDims := [0]
  operandBatchingDims := []
  startIndicesBatchingDims := []
  startIndexMap := [0]
  indexVectorDim := 1
  sliceSizes := ![1, 30]
  wf := gather_S200000x30_S6400000x1_S6400000x30_1_0_n_n_0_1_130_wf
def scatter_S200000x30_S6400000x1_S6400000x30_1_0_0_1 : ScatterDims S200000x30 S6400000x1 S6400000x30 where
  updateWindowDims := [1]
  insertedWindowDims := [0]
  scatterDimsToOperandDims := [0]
  indexVectorDim := 1
  wf := scatter_S200000x30_S6400000x1_S6400000x30_1_0_0_1_wf
def dot_S2000x30_S30x32_S2000x32_1_0_0_1_n_n : DotDims S2000x30 S30x32 S2000x32 where
  lhsContracting := [1]
  rhsContracting := [0]
  lhsNonContracting := [0]
  rhsNonContracting := [1]
  lhsBatch := []
  rhsBatch := []
  wf := dot_S2000x30_S30x32_S2000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S2000x32_S32x2_S2000x2_1_0_0_1_n_n : DotDims S2000x32 S32x2 S2000x2 where
  lhsContracting := [1]
  rhsContracting := [0]
  lhsNonContracting := [0]
  rhsNonContracting := [1]
  lhsBatch := []
  rhsBatch := []
  wf := dot_S2000x32_S32x2_S2000x2_1_0_0_1_n_n_wf

abbrev win0_0 : Pipeline.Window sig grid0 :=
  Pipeline.Window.ofSpec (Memref.whole main_arg0) S2000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S30x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S30x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S200000x30 : Shape := ⟨2, ![200000, 30]⟩
abbrev S2x6400000 : Shape := ⟨2, ![2, 6400000]⟩
abbrev S30x32 : Shape := ⟨2, ![30, 32]⟩
abbrev S32 : Shape := ⟨1, ![32]⟩
abbrev S32x2 : Shape := ⟨2, ![32, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x30 : Shape := ⟨2, ![6400000, 30]⟩
abbrev S200000 : Shape := ⟨1, ![200000]⟩
abbrev S200000x1 : Shape := ⟨2, ![200000, 1]⟩
abbrev S200000x32 : Shape := ⟨2, ![200000, 32]⟩
abbrev S1x32 : Shape := ⟨2, ![1, 32]⟩
abbrev S6400000x32 : Shape := ⟨2, ![6400000, 32]⟩
abbrev S200000x2 : Shape := ⟨2, ![200000, 2]⟩
abbrev S1x2 : Shape := ⟨2, ![1, 2]⟩

abbrev nBuf : Space → Nat
  | .hbm => 92
  | .vmem => 0
  | .smem => 0
  | _ => 0

abbrev bufTy : (tb : Table) → Fin (tcTables nBuf tb) → BufTy
  | .hbm, ⟨0, _⟩ => ⟨S200000x30, .f32⟩
  | .hbm, ⟨1, _⟩ => ⟨S2x6400000, .i32⟩
  | .hbm, ⟨2, _⟩ => ⟨S30x32, .f32⟩
  | .hbm, ⟨3, _⟩ => ⟨S32, .f32⟩
  | .hbm, ⟨4, _⟩ => ⟨S30x32, .f32⟩
  | .hbm, ⟨5, _⟩ => ⟨S32x2, .f32⟩
  | .hbm, ⟨6, _⟩ => ⟨S2, .f32⟩
  | .hbm, ⟨7, _⟩ => ⟨S32x2, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S6400000x30, .f32⟩
  | .hbm, ⟨21, _⟩ => ⟨S_, .f32⟩
  | .hbm, ⟨22, _⟩ => ⟨S200000x30, .f32⟩
  | .hbm, ⟨23, _⟩ => ⟨S6400000x1, .i32⟩
  | .hbm, ⟨24, _⟩ => ⟨S200000x30, .f32⟩
  | .hbm, ⟨25, _⟩ => ⟨S_, .f32⟩
  | .hbm, ⟨26, _⟩ => ⟨S6400000, .f32⟩
  | .hbm, ⟨27, _⟩ => ⟨S_, .f32⟩
  | .hbm, ⟨28, _⟩ => ⟨S200000, .f32⟩
  | .hbm, ⟨29, _⟩ => ⟨S6400000x1, .i32⟩
  | .hbm, ⟨30, _⟩ => ⟨S200000, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S200000x1, .f32⟩
  | .hbm, ⟨35, _⟩ => ⟨S200000x30, .f32⟩
  | .hbm, ⟨36, _⟩ => ⟨S200000x30, .f32⟩
  | .hbm, ⟨37, _⟩ => ⟨S200000x32, .f32⟩
  | .hbm, ⟨38, _⟩ => ⟨S1x32, .f32⟩
  | .hbm, ⟨39, _⟩ => ⟨S200000x32, .f32⟩
  | .hbm, ⟨40, _⟩ => ⟨S200000x32, .f32⟩
  | .hbm, ⟨41, _⟩ => ⟨S200000x32, .f32⟩
  | .hbm, ⟨42, _⟩ => ⟨S200000x32, .f32⟩
  | .hbm, ⟨43, _⟩ => ⟨S_, .f32⟩
  | .hbm, ⟨44, _⟩ => ⟨S200000x32, .f32⟩
  | .hbm, ⟨45, _⟩ => ⟨S200000x32, .f32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x32, .f32⟩
  | .hbm, ⟨55, _⟩ => ⟨S_, .f32⟩
  | .hbm, ⟨56, _⟩ => ⟨S200000x32, .f32⟩
  | .hbm, ⟨57, _⟩ => ⟨S6400000x1, .i32⟩
  | .hbm, ⟨58, _⟩ => ⟨S200000x32, .f32⟩
  | .hbm, ⟨59, _⟩ => ⟨S_, .f32⟩
  | .hbm, ⟨60, _⟩ => ⟨S6400000, .f32⟩
  | .hbm, ⟨61, _⟩ => ⟨S_, .f32⟩
  | .hbm, ⟨62, _⟩ => ⟨S200000, .f32⟩
  | .hbm, ⟨63, _⟩ => ⟨S6400000x1, .i32⟩
  | .hbm, ⟨64, _⟩ => ⟨S200000, .f32⟩
  | .hbm, ⟨65, _⟩ => ⟨S_, .f32⟩
  | .hbm, ⟨66, _⟩ => ⟨S200000, .f32⟩
  | .hbm, ⟨67, _⟩ => ⟨S200000, .f32⟩
  | .hbm, ⟨68, _⟩ => ⟨S200000x1, .f32⟩
  | .hbm, ⟨69, _⟩ => ⟨S200000x32, .f32⟩
  | .hbm, ⟨70, _⟩ => ⟨S200000x32, .f32⟩
  | .hbm, ⟨71, _⟩ => ⟨S200000x2, .f32⟩
  | .hbm, ⟨72, _⟩ => ⟨S1x2, .f32⟩
  | .hbm, ⟨73, _⟩ => ⟨S200000x2, .f32⟩
  | .hbm, ⟨74, _⟩ => ⟨S200000x2, .f32⟩
  | .hbm, ⟨75, _⟩ => ⟨S200000x2, .f32⟩
  | .hbm, ⟨76, _⟩ => ⟨S200000x2, .f32⟩
  | .hbm, ⟨77, _⟩ => ⟨S_, .f32⟩
  | .hbm, ⟨78, _⟩ => ⟨S200000, .f32⟩
  | .hbm, ⟨79, _⟩ => ⟨S_, .f32⟩
  | .hbm, ⟨80, _⟩ => ⟨S200000, .f32⟩
  | .hbm, ⟨81, _⟩ => ⟨S200000, .f32⟩
  | .hbm, ⟨82, _⟩ => ⟨S200000x1, .f32⟩
  | .hbm, ⟨83, _⟩ => ⟨S200000x2, .f32⟩
  | .hbm, ⟨84, _⟩ => ⟨S200000x2, .f32⟩
  | .hbm, ⟨85, _⟩ => ⟨S200000x2, .f32⟩
  | .hbm, ⟨86, _⟩ => ⟨S_, .f32⟩
  | .hbm, ⟨87, _⟩ => ⟨S200000, .f32⟩
  | .hbm, ⟨88, _⟩ => ⟨S200000x1, .f32⟩
  | .hbm, ⟨89, _⟩ => ⟨S200000x1, .f32⟩
  | .hbm, ⟨90, _⟩ => ⟨S200000x2, .f32⟩
  | .hbm, ⟨91, _⟩ => ⟨S200000x2, .f32⟩
  | _, _ => ⟨S200000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x30 : S_.BroadcastsInDim S200000x30 (![] : Fin 0 → Fin S200000x30.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x30_0_1 : S200000x1.BroadcastsInDim S200000x30 (![0, 1] : Fin 2 → Fin S200000x30.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  gather_S200000x30_S6400000x1_S6400000x30_1_0_n_n_0_1_130_wf : GatherDims.WF S200000x30 S6400000x1 S6400000x30 [1] [0] [] [0] [] 1 ![1, 30]
  scatter_S200000x30_S6400000x1_S6400000x30_1_0_0_1_wf : ScatterDims.WF S200000x30 S6400000x1 S6400000x30 [1] [0] [0] 1
  scatter_S200000_S6400000x1_S6400000_n_0_0_1_wf : ScatterDims.WF S200000 S6400000x1 S6400000 [] [0] [0] 1
  dot_S200000x30_S30x32_S200000x32_1_0_0_1_n_n_wf : DotDims.WF S200000x30 S30x32 S200000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S200000x32_S32x2_S200000x2_1_0_0_1_n_n_wf : DotDims.WF S200000x32 S32x2 S200000x2 [1] [0] [0] [1] [] []

variable [Facts₀]

def gather_S200000x30_S6400000x1_S6400000x30_1_0_n_n_0_1_130 : GatherDims S200000x30 S6400000x1 S6400000x30 where
  offsetDims := [1]
  collapsedSliceDims := [0]
  operandBatchingDims := []
  startIndicesBatchingDims := []
  startIndexMap := [0]
  indexVectorDim := 1
  sliceSizes := ![1, 30]
  wf := gather_S200000x30_S6400000x1_S6400000x30_1_0_n_n_0_1_130_wf
def scatter_S200000x30_S6400000x1_S6400000x30_1_0_0_1 : ScatterDims S200000x30 S6400000x1 S6400000x30 where
  updateWindowDims := [1]
  insertedWindowDims := [0]
  scatterDimsToOperandDims := [0]
  indexVectorDim := 1
  wf := scatter_S200000x30_S6400000x1_S6400000x30_1_0_0_1_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S200000x30_S30x32_S200000x32_1_0_0_1_n_n : DotDims S200000x30 S30x32 S200000x32 where
  lhsContracting := [1]
  rhsContracting := [0]
  lhsNonContracting := [0]
  rhsNonContracting := [1]
  lhsBatch := []
  rhsBatch := []
  wf := dot_S200000x30_S30x32_S200000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S200000x32_S32x2_S200000x2_1_0_0_1_n_n : DotDims S200000x32 S32x2 S200000x2 where
  lhsContracting := [1]
  rhsContracting := [0]
  lhsNonContracting := [0]
  rhsNonContracting := [1]
  lhsBatch := []
  rhsBatch := []
  wf := dot_S200000x32_S32x2_S200000x2_1_0_0_1_n_n_wf

class Facts : Prop extends Facts₀ where

variable [Facts]
-- ==== Proof.KernelRun.lean ====
/-
  The idealized kernel's run with its result named.

  @main is a stretch of host operations, the first layer's region, a second stretch, the second layer's region.
  Run from any memory with zero counters, every weakly fair execution terminates, and in the final memory every
  unscoped buffer holds the contents of the last segment boundary: the launch contents folded through the two host
  stretches and the two regions' write-backs. Read at the program's result buffer, that is what the second region's
  write-backs leave in its output array; read at an argument, it is the argument as launched.
-/
import proofs.«102235_j56212531970402_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- The run: the result buffer ends at what the second region's write-backs leave in its output array (the proof
    data's array after all its grid points), the arguments as launched. -/
theorem run : θ_run defs (onTc (τ := τ) (main (F := F))) ⟨m, fun _ => 0, ρ⟩ (fun r => ∀ c : Dev nD,
      r.2.mem ((c.tc : Thread nD τ).loc main_v32) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v32 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibSageRows.lean ====
/-
  One layer of a two-layer neighbour-mean graph network, one node (one row) at a time.

  For a node with own features `xr`, summed neighbour features `aggr` and neighbour count `cnt`, a layer first
  takes the neighbour MEAN `aggr k / max cnt 1`, then the affine map

      affine q = ((∑ k, mean k * wl k q) + b q) + ∑ k, xr k * wr k q

  with the bias added between the two products. The first layer rectifies it, `max (affine q) 0`; the second
  turns the row of affine values into log-probabilities: with `M` the row's maximum (a fold of `max` from minus
  infinity), `(o q - M) - log (∑ j, exp (o j - M))`. Everything is over the extended reals, where a float is its
  exact value and a change of float format does nothing. A row of the result depends on that row of the node
  arrays only, which is why a block of rows of the result is the same function of that block of rows.

  The three float words that occur (one, zero, minus infinity) are kept as words: both programs spell them the same.
-/
import Idealize.ShloMosaic.PureOps.Ideal.Laws
import Idealize.ShloMosaic.Lib.ValueIdx

noncomputable section

open scoped BigOperators

namespace Cert.SageRows

open Idealize.ShloMosaic Idealize.ShloMosaic.ValueIdx

/-- The float word of `1.0`, of `0.0` and of minus infinity, at their exact values. -/
abbrev one : EReal := Ideal.ofBits .f32 0x3F800000#32
abbrev zero : EReal := Ideal.ofBits .f32 0x00000000#32
abbrev negInf : EReal := Ideal.ofBits .f32 0xFF800000#32

variable {n K N : ℕ}

/-- The affine part of a layer at one node: the neighbour mean through `wl`, the bias, the node's own features
    through `wr`, added in this order. -/
def affine (xr aggr : Fin K → EReal) (cnt : EReal) (wl wr : Fin K → Fin N → EReal) (b : Fin N → EReal) (q : Fin N) : EReal :=
  ((∑ k : Fin K, Ideal.div (aggr k) (max cnt one) * wl k q) + b q) + ∑ k : Fin K, xr k * wr k q

/-- A row's maximum, folded from minus infinity. -/
def rowMax (o : Fin N → EReal) : EReal := (Finset.univ : Finset (Fin N)).fold max negInf o

/-- Log-probabilities of a row: shift by the maximum, subtract the log of the sum of exponentials. -/
def logProb (o : Fin N → EReal) (q : Fin N) : EReal :=
  (o q - rowMax o) - Ideal.log (∑ j : Fin N, Ideal.exp (o j - rowMax o))

/-- Folding `max` from `b` never falls below `b`: taking the maximum with `b` once more changes nothing. -/
theorem max_init_fold {ι : Type} (s : Finset ι) (b : EReal) (f : ι → EReal) : max b (s.fold max b f) = s.fold max b f :=
  max_eq_right ((Finset.le_fold_max b).mpr (Or.inl le_rfl))

/-- The rows of the node arrays a layer reads at node `p`, and the weights as functions of coordinates. -/
abbrev rowOf (x : (⟨2, ![n, K]⟩ : Shape).Idx → EReal) (p : Fin n) : Fin K → EReal := fun k => x (ix2 p k)
abbrev matOf (w : (⟨2, ![K, N]⟩ : Shape).Idx → EReal) : Fin K → Fin N → EReal := fun k q => w (ix2 k q)
abbrev vecOf (b : (⟨1, ![N]⟩ : Shape).Idx → EReal) : Fin N → EReal := fun q => b (ix1 q)

/-- The affine part of a layer on whole arrays: node features `x`, summed neighbour features `agg`, neighbour
    counts `cnt`, weights `wl`, `wr` and bias `b`. -/
def affineAt (x agg : (⟨2, ![n, K]⟩ : Shape).Idx → EReal) (cnt : (⟨1, ![n]⟩ : Shape).Idx → EReal)
    (wl : (⟨2, ![K, N]⟩ : Shape).Idx → EReal) (b : (⟨1, ![N]⟩ : Shape).Idx → EReal) (wr : (⟨2, ![K, N]⟩ : Shape).Idx → EReal)
    (p : Fin n) (q : Fin N) : EReal :=
  affine (rowOf x p) (rowOf agg p) (cnt (ix1 p)) (matOf wl) (matOf wr) (vecOf b) q

/-- The first layer on whole arrays: the rectified affine part. -/
def hiddenLayer (x agg : (⟨2, ![n, K]⟩ : Shape).Idx → EReal) (cnt : (⟨1, ![n]⟩ : Shape).Idx → EReal)
    (wl : (⟨2, ![K, N]⟩ : Shape).Idx → EReal) (b : (⟨1, ![N]⟩ : Shape).Idx → EReal) (wr : (⟨2, ![K, N]⟩ : Shape).Idx → EReal) :
    (⟨2, ![n, N]⟩ : Shape).Idx → EReal :=
  fun i => max (affineAt x agg cnt wl b wr (i 0) (i 1)) zero

/-- The second layer on whole arrays: the log-probabilities of each node's row of affine values. -/
def outputLayer (x agg : (⟨2, ![n, K]⟩ : Shape).Idx → EReal) (cnt : (⟨1, ![n]⟩ : Shape).Idx → EReal)
    (wl : (⟨2, ![K, N]⟩ : Shape).Idx → EReal) (b : (⟨1, ![N]⟩ : Shape).Idx → EReal) (wr : (⟨2, ![K, N]⟩ : Shape).Idx → EReal) :
    (⟨2, ![n, N]⟩ : Shape).Idx → EReal :=
  fun i => logProb (fun j => affineAt x agg cnt wl b wr (i 0) j) (i 1)

theorem hiddenLayer_apply (x agg : (⟨2, ![n, K]⟩ : Shape).Idx → EReal) (cnt : (⟨1, ![n]⟩ : Shape).Idx → EReal)
    (wl : (⟨2, ![K, N]⟩ : Shape).Idx → EReal) (b : (⟨1, ![N]⟩ : Shape).Idx → EReal) (wr : (⟨2, ![K, N]⟩ : Shape).Idx → EReal)
    (p : Fin n) (q : Fin N) :
    hiddenLayer x agg cnt wl b wr (ix2 p q) = max (affineAt x agg cnt wl b wr p q) zero := rfl

theorem outputLayer_apply (x agg : (⟨2, ![n, K]⟩ : Shape).Idx → EReal) (cnt : (⟨1, ![n]⟩ : Shape).Idx → EReal)
    (wl : (⟨2, ![K, N]⟩ : Shape).Idx → EReal) (b : (⟨1, ![N]⟩ : Shape).Idx → EReal) (wr : (⟨2, ![K, N]⟩ : Shape).Idx → EReal)
    (p : Fin n) (q : Fin N) :
    outputLayer x agg cnt wl b wr (ix2 p q) = logProb (fun j => affineAt x agg cnt wl b wr p j) q := rfl

end Cert.SageRows

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibSageBody.lean ====
/-
  A layer's chain of vector operations, as a kernel body spells it on one block of rows, read at a row.

  On a block of `M` rows the body holds the block's own features `x`, summed neighbour features `agg` and
  neighbour counts as a COLUMN `cnt : [M, 1]`, the weights, and the bias as a ROW `b : [1, N]`. It takes
  `max cnt 1`, broadcasts the column along the features, divides, narrows every matrix operand (which changes no
  value at the exact reading), multiplies into a zero accumulator, adds the bias row broadcast over the rows, and
  adds the second product. Read at `(p, q)` this is `affine` of row `p`: a plain matrix product from the zero
  accumulator is the textbook sum, a column broadcast reads the column's entry of that row, a row broadcast the
  row's entry of that column.

  The first layer's body then takes the maximum with a zero splat; the second's turns each row into
  log-probabilities: the row maximum by a reduction from minus infinity, cast to a column and broadcast back, the
  sum of exponentials by a reduction from zero, its logarithm likewise.
-/
import Idealize.ShloMosaic.Lib.ValueLayout
import proofs.«102235_j56212531970402_1_alg».proof.Proof.LibSageRows
import proofs.«102235_j56212531970402_1_alg».proof.Proof.LibMatmulPlain
import proofs.«102235_j56212531970402_1_alg».proof.Proof.LibColumnForms
import proofs.«102235_j56212531970402_1_alg».proof.Proof.LibAxisReads

noncomputable section

open scoped BigOperators

namespace Cert.SageRows.Body

open Idealize.ShloMosaic Idealize.ShloMosaic.ValueIdx Cert.SageRows

variable {M K N : ℕ}

/-- The affine chain of a body on a block of `M` rows, as one array. -/
def affineBlock (d : DotDims ⟨2, ![M, K]⟩ ⟨2, ![K, N]⟩ ⟨2, ![M, N]⟩)
    (cnt : FVec Ideal ⟨2, ![M, 1]⟩ .f32) (agg x : FVec Ideal ⟨2, ![M, K]⟩ .f32)
    (wl wr : FVec Ideal ⟨2, ![K, N]⟩ .f32) (b : FVec Ideal ⟨2, ![1, N]⟩ .f32)
    (hcol : (⟨2, ![M, 1]⟩ : Shape).Broadcasts ⟨2, ![M, K]⟩) (hrow : (⟨2, ![1, N]⟩ : Shape).Broadcasts ⟨2, ![M, N]⟩)
    (hlt : FTy.bf16.bits < FTy.f32.bits) : FVec Ideal ⟨2, ![M, N]⟩ .f32 :=
  addf (addf (matmul d none
        (truncf .bf16 (divf agg (broadcastTo ⟨2, ![M, K]⟩ (maximumf cnt (broadcast ⟨2, ![M, 1]⟩ (Scalar.ofBits .f32 0x3F800000#32))) hcol)) hlt)
        (truncf .bf16 wl hlt) (constant ⟨2, ![M, N]⟩ .f32 0x00000000#32))
      (broadcastTo ⟨2, ![M, N]⟩ b hrow))
    (matmul d none (truncf .bf16 x hlt) (truncf .bf16 wr hlt) (constant ⟨2, ![M, N]⟩ .f32 0x00000000#32))

/-- The affine chain at `(p, q)` is `affine` of row `p` of the block. -/
theorem affineBlock_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (cnt : FVec Ideal ⟨2, ![M, 1]⟩ .f32) (agg x : FVec Ideal ⟨2, ![M, K]⟩ .f32)
    (wl wr : FVec Ideal ⟨2, ![K, N]⟩ .f32) (b : FVec Ideal ⟨2, ![1, N]⟩ .f32)
    (hcol : (⟨2, ![M, 1]⟩ : Shape).Broadcasts ⟨2, ![M, K]⟩) (hrow : (⟨2, ![1, N]⟩ : Shape).Broadcasts ⟨2, ![M, N]⟩)
    (hlt : FTy.bf16.bits < FTy.f32.bits) (p : Fin M) (q : Fin N) :
    affineBlock d cnt agg x wl wr b hcol hrow hlt (ix2 p q)
      = affine (fun k => x (ix2 p k)) (fun k => agg (ix2 p k)) (cnt (ix2 p (0 : Fin 1)))
          (fun k q => wl (ix2 k q)) (fun k q => wr (ix2 k q)) (fun q => b (ix2 (0 : Fin 1) q)) q := by
  unfold affineBlock affine
  rw [addf_apply, addf_apply, broadcastTo_1b_ab_apply b hrow p q]
  simp only [matmul]
  rw [Cert.MatmulPlain.matmul_plain_apply d hlc hrc hln hrn hlb hrb none _ _ p q,
    Cert.MatmulPlain.matmul_plain_apply d hlc hrc hln hrn hlb hrb none _ _ p q]
  congr 2
  refine Finset.sum_congr rfl fun k _ => ?_
  rw [truncf_apply, truncf_apply, divf_apply, Cert.ColumnForms.broadcastTo_a1_ab_apply _ hcol p k]
  rfl

/-- The first layer's body at `(p, q)`: the affine chain against a zero splat. -/
theorem hidden_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (cnt : FVec Ideal ⟨2, ![M, 1]⟩ .f32) (agg x : FVec Ideal ⟨2, ![M, K]⟩ .f32)
    (wl wr : FVec Ideal ⟨2, ![K, N]⟩ .f32) (b : FVec Ideal ⟨2, ![1, N]⟩ .f32)
    (hcol : (⟨2, ![M, 1]⟩ : Shape).Broadcasts ⟨2, ![M, K]⟩) (hrow : (⟨2, ![1, N]⟩ : Shape).Broadcasts ⟨2, ![M, N]⟩)
    (hlt : FTy.bf16.bits < FTy.f32.bits) (p : Fin M) (q : Fin N) :
    maximumf (affineBlock d cnt agg x wl wr b hcol hrow hlt) (broadcast ⟨2, ![M, N]⟩ (Scalar.ofBits .f32 0x00000000#32)) (ix2 p q)
      = max (affine (fun k => x (ix2 p k)) (fun k => agg (ix2 p k)) (cnt (ix2 p (0 : Fin 1)))
          (fun k q => wl (ix2 k q)) (fun k q => wr (ix2 k q)) (fun q => b (ix2 (0 : Fin 1) q)) q) zero := by
  rw [maximumf_apply, affineBlock_apply d hlc hrc hln hrn hlb hrb]
  rfl

/-- The second layer's closing chain on a block `z` of affine values: each row's log-probabilities. -/
def logProbBlock (z : FVec Ideal ⟨2, ![M, N]⟩ .f32) (hred : (⟨2, ![M, N]⟩ : Shape).Reduces [1] ⟨1, ![M]⟩)
    (hcast : (⟨1, ![M]⟩ : Shape).ShapeCasts ⟨2, ![M, 1]⟩) (hcol : (⟨2, ![M, 1]⟩ : Shape).Broadcasts ⟨2, ![M, N]⟩) :
    FVec Ideal ⟨2, ![M, N]⟩ .f32 :=
  subf (subf z (broadcastTo ⟨2, ![M, N]⟩ (shapeCast ⟨2, ![M, 1]⟩ (multiReduction .maximumf [1] ⟨1, ![M]⟩ z 0xFF800000#32 hred (.inl rfl) rfl) hcast) hcol))
    (broadcastTo ⟨2, ![M, N]⟩ (log (shapeCast ⟨2, ![M, 1]⟩
      (multiReduction .add [1] ⟨1, ![M]⟩
        (exp (subf z (broadcastTo ⟨2, ![M, N]⟩ (shapeCast ⟨2, ![M, 1]⟩ (multiReduction .maximumf [1] ⟨1, ![M]⟩ z 0xFF800000#32 hred (.inl rfl) rfl) hcast) hcol)))
        0x00000000#32 hred (.inl rfl) rfl) hcast)) hcol)

/-- The shifted block at `(p, k)`: the entry minus its row's maximum. -/
theorem shifted_apply (z : FVec Ideal ⟨2, ![M, N]⟩ .f32) (hred : (⟨2, ![M, N]⟩ : Shape).Reduces [1] ⟨1, ![M]⟩)
    (hcast : (⟨1, ![M]⟩ : Shape).ShapeCasts ⟨2, ![M, 1]⟩) (hcol : (⟨2, ![M, 1]⟩ : Shape).Broadcasts ⟨2, ![M, N]⟩)
    (p : Fin M) (k : Fin N) :
    subf z (broadcastTo ⟨2, ![M, N]⟩ (shapeCast ⟨2, ![M, 1]⟩ (multiReduction .maximumf [1] ⟨1, ![M]⟩ z 0xFF800000#32 hred (.inl rfl) rfl) hcast) hcol) (ix2 p k)
      = z (ix2 p k) - rowMax (fun j => z (ix2 p j)) := by
  rw [subf_apply, Cert.ColumnForms.broadcastTo_a1_ab_apply _ hcol p k, Cert.ColumnForms.shapeCast_a_a1_apply _ hcast p 0,
    Cert.AxisReads.max_cols z hred p]
  rfl

/-- The closing chain at `(p, q)` is `logProb` of row `p`. -/
theorem logProbBlock_apply (z : FVec Ideal ⟨2, ![M, N]⟩ .f32) (hred : (⟨2, ![M, N]⟩ : Shape).Reduces [1] ⟨1, ![M]⟩)
    (hcast : (⟨1, ![M]⟩ : Shape).ShapeCasts ⟨2, ![M, 1]⟩) (hcol : (⟨2, ![M, 1]⟩ : Shape).Broadcasts ⟨2, ![M, N]⟩)
    (p : Fin M) (q : Fin N) :
    logProbBlock z hred hcast hcol (ix2 p q) = logProb (fun j => z (ix2 p j)) q := by
  unfold logProbBlock logProb
  rw [subf_apply, shifted_apply z hred hcast hcol p q, Cert.ColumnForms.broadcastTo_a1_ab_apply _ hcol p q]
  show _ - Ideal.log (shapeCast ⟨2, ![M, 1]⟩ _ hcast (ix2 p (0 : Fin 1))) = _
  rw [Cert.ColumnForms.shapeCast_a_a1_apply _ hcast p 0, Cert.AxisReads.sum_cols _ hred p]
  congr 2
  refine Finset.sum_congr rfl fun k _ => ?_
  show Ideal.exp (subf z _ (ix2 p k)) = _
  rw [shifted_apply z hred hcast hcol p k]

end Cert.SageRows.Body

end
-- ==== Proof.KernelValue0.lean ====
/-
  The first layer's region: what its write-backs leave in its output array.

  The region's grid has 100 points; point `t` works on rows `2000 t … 2000 t + 1999` of the node arrays (own
  features, summed neighbour features, the neighbour-count column) and on the whole weight and bias arrays, and
  writes back rows `2000 t …` of the output. The body's stored value at `(p, q)` of the block is the rectified
  affine value of row `p` of the blocks, and row `p` of a block is row `2000 t + p` of its array, so what point
  `t` writes back is block `t` of ONE whole-array function, `hiddenLayer` of the arrays as the region finds them.
  Every row lies in exactly one point's block (row `r` in point `r / 2000`'s), so the output array ends holding
  that function.

  The count column and the bias row are each a vector the host reshaped before the region (`[n] → [n, 1]`,
  `[N] → [1, N]`); the statement takes the two vectors and the two reshapes as hypotheses, whatever the region's
  entry contents are otherwise.
-/
import proofs.«102235_j56212531970402_1_alg».proof.Proof.Gen.KernelIdeal.Frame
import proofs.«102235_j56212531970402_1_alg».proof.Proof.LibSageBody
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.SageRows

theorem hz : (![0, 0] : Fin 2 → Nat) = fun _ => 0 := funext fun a => by fin_cases a <;> rfl

/-- The body's stored value at `(p, q)` of the block: the rectified affine value of row `p` of the loaded blocks. -/
theorem pay_apply (cb : Vec Ideal S2000x1 .f32) (ab xb : Vec Ideal S2000x30 .f32) (wl wr : Vec Ideal S30x32 .f32)
    (bb : Vec Ideal S1x32 .f32) (p : Fin 2000) (q : Fin 32) :
    k0_pay1 (F := Ideal) cb ab xb wl wr bb (ix2 p q)
      = max (affine (fun k => xb (ix2 p k)) (fun k => ab (ix2 p k)) (cb (ix2 p (0 : Fin 1)))
          (fun k q => wl (ix2 k q)) (fun k q => wr (ix2 k q)) (fun q => bb (ix2 (0 : Fin 1) q)) q) zero := by
  unfold k0_pay1
  simp only [shapeCast_self]
  exact Body.hidden_apply dot_S2000x30_S30x32_S2000x32_1_0_0_1_n_n rfl rfl rfl rfl rfl rfl cb ab xb wl wr bb
    Facts₀.broadcasts_S2000x1_S2000x30 Facts₀.broadcasts_S1x32_S2000x32 Facts₀.bitsLt_bf16_f32 p q

/-- The printed index maps over the grid: a node window's block row is the point, its block column 0; a weight or
    bias window's block is always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The node `p` of point `t`'s block is: row `2000 t + p`. -/
def nodeAt (t : Fin cfg0.N) (p : Fin 2000) : Fin 200000 :=
  ⟨2000 * t.val + p.val, by have ht : t.val < 100 := lt_of_lt_of_eq t.isLt N_0; have := p.isLt; omega⟩

/-- Row `p` of the own-features block at point `t` is row `2000 t + p` of the array. -/
theorem x_blk (c : Dev nD) (t : Fin cfg0.N) (p : Fin 2000) (k : Fin 30) :
    (iblk0 V c 0 t : Vec Ideal S2000x30 .f32) (ix2 p k) = (V c main_arg0 : S200000x30.Idx → EReal) (ix2 (nodeAt t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [e0]; omega
  | ⟨1, _⟩ => show win0_0.index t 1 * 30 + 1 * k.val = k.val; rw [e1]; omega

/-- The same for the summed neighbour features. -/
theorem agg_blk (c : Dev nD) (t : Fin cfg0.N) (p : Fin 2000) (k : Fin 30) :
    (iblk0 V c 1 t : Vec Ideal S2000x30 .f32) (ix2 p k) = (V c main_v18 : S200000x30.Idx → EReal) (ix2 (nodeAt t p) k) := by
  obtain ⟨-, -, e0, e1, -⟩ := idx_facts t
  unfold iblk0
  rw [View.read_apply]
  show V c main_v18 _ = V c main_v18 _
  congr 1
  funext a
  apply Fin.ext
  match a with
  | ⟨0, _⟩ => show win0_1.index t 0 * 2000 + 1 * p.val = 2000 * t.val + p.val; rw [e0]; omega
  | ⟨1, _⟩ => show win0_1.index t 1 * 30 + 1 * k.val = k.val; rw [e1]; omega

/-- The same for the count column. -/
theorem cnt_blk (c : Dev nD) (t : Fin cfg0.N) (p : Fin 2000) (u : Fin 1) :
    (iblk0 V c 2 t : Vec Ideal S2000x1 .f32) (ix2 p u) = (V c main_v8 : S200000x1.Idx → EReal) (ix2 (nodeAt t p) u) := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t 0 * 2000 + 1 * p.val = 2000 * t.val + p.val; rw [e0]; omega
  | ⟨1, _⟩ => show win0_2.index t 1 * 1 + 1 * u.val = u.val; rw [e1]; omega

/-- A weight window's one block is its whole array. -/
theorem wl_blk (c : Dev nD) (t : Fin cfg0.N) (k : Fin 30) (q : Fin 32) :
    (iblk0 V c 3 t : Vec Ideal S30x32 .f32) (ix2 k q) = (V c main_arg2 : S30x32.Idx → EReal) (ix2 k q) := by
  obtain ⟨-, -, -, -, -, -, e0, e1, -⟩ := idx_facts t
  unfold iblk0
  rw [View.read_apply]
  show V c main_arg2 _ = V c main_arg2 _
  congr 1
  funext a
  apply Fin.ext
  match a with
  | ⟨0, _⟩ => show win0_3.index t 0 * 30 + 1 * k.val = k.val; rw [e0]; omega
  | ⟨1, _⟩ => show win0_3.index t 1 * 32 + 1 * q.val = q.val; rw [e1]; omega

theorem b_blk (c : Dev nD) (t : Fin cfg0.N) (u : Fin 1) (q : Fin 32) :
    (iblk0 V c 4 t : Vec Ideal S1x32 .f32) (ix2 u q) = (V c main_v19 : S1x32.Idx → EReal) (ix2 u q) := by
  obtain ⟨-, -, -, -, -, -, -, -, e0, e1, -⟩ := idx_facts t
  unfold iblk0
  rw [View.read_apply]
  show V c main_v19 _ = V c main_v19 _
  congr 1
  funext a
  apply Fin.ext
  match a with
  | ⟨0, _⟩ => show win0_4.index t 0 * 1 + 1 * u.val = u.val; rw [e0]; omega
  | ⟨1, _⟩ => show win0_4.index t 1 * 32 + 1 * q.val = q.val; rw [e1]; omega

theorem wr_blk (c : Dev nD) (t : Fin cfg0.N) (k : Fin 30) (q : Fin 32) :
    (iblk0 V c 5 t : Vec Ideal S30x32 .f32) (ix2 k q) = (V c main_arg4 : S30x32.Idx → EReal) (ix2 k q) := by
  obtain ⟨-, -, -, -, -, -, -, -, -, -, e0, e1, -⟩ := idx_facts t
  unfold iblk0
  rw [View.read_apply]
  show V c main_arg4 _ = V c main_arg4 _
  congr 1
  funext a
  apply Fin.ext
  match a with
  | ⟨0, _⟩ => show win0_5.index t 0 * 30 + 1 * k.val = k.val; rw [e0]; omega
  | ⟨1, _⟩ => show win0_5.index t 1 * 32 + 1 * q.val = q.val; rw [e1]; omega

/-- Entry `(p, q)` of the output block at point `t` sits at `(2000 t + p, q)` of the output array. -/
theorem out_emb (t : Fin cfg0.N) (p : Fin 2000) (q : Fin 32) :
    ((cfg0.win 6).blk t).view.emb (ix2 p q) = (ix2 (nodeAt t p) q : S200000x32.Idx) := by
  obtain ⟨-, -, -, -, -, -, -, -, -, -, -, -, e0, e1⟩ := idx_facts t
  funext a
  apply Fin.ext
  match a with
  | ⟨0, _⟩ => show win0_6.index t 0 * 2000 + 1 * p.val = 2000 * t.val + p.val; rw [e0]; omega
  | ⟨1, _⟩ => show win0_6.index t 1 * 32 + 1 * q.val = q.val; rw [e1]; omega

/-- WHAT POINT `t` WRITES BACK is block `t` of `hiddenLayer` of the arrays as the region finds them. -/
theorem flushed_eq (c : Dev nD) (t : Fin cfg0.N)
    (cntv : (⟨1, ![200000]⟩ : Shape).Idx → EReal) (bv : (⟨1, ![32]⟩ : Shape).Idx → EReal)
    (h8 : (V c main_v8 : S200000x1.Idx → EReal) = shapeCast S200000x1 cntv Facts₀.shapeCasts_S200000_S200000x1)
    (h19 : (V c main_v19 : S1x32.Idx → EReal) = shapeCast S1x32 bv Facts₀.shapeCasts_S32_S1x32) :
    (dat0 V c).flushed 6 t = ((cfg0.win 6).blk t).view.read (Elt Ideal)
      (hiddenLayer (V c main_arg0) (V c main_v18) cntv (V c main_arg2) bv (V c main_arg4)) := by
  show (cfg0.win 6).cut (grid0.coords t) ((dat0 V c).after 6 t) = _
  rw [after0_6]
  unfold out0_6
  rw [View.canon_unit_zero hz]
  simp only [View.ld_unit_zero (S := S2000x1) hz, View.ld_unit_zero (S := S2000x30) hz,
    View.ld_unit_zero (S := S30x32) hz, View.ld_unit_zero (S := S1x32) hz]
  funext j
  obtain ⟨p, q, rfl⟩ : ∃ (p : Fin 2000) (q : Fin 32), j = ix2 p q := ⟨j 0, j 1, eq_ix2 j⟩
  refine (pay_apply (iblk0 V c 2 t) (iblk0 V c 1 t) (iblk0 V c 0 t) (iblk0 V c 3 t) (iblk0 V c 5 t) (iblk0 V c 4 t) p q).trans ?_
  rw [View.read_apply, out_emb t p q, hiddenLayer_apply]
  unfold affineAt
  have ex : (fun k => (iblk0 V c 0 t : Vec Ideal S2000x30 .f32) (ix2 p k)) = rowOf (V c main_arg0) (nodeAt t p) :=
    funext fun k => x_blk V c t p k
  have ea : (fun k => (iblk0 V c 1 t : Vec Ideal S2000x30 .f32) (ix2 p k)) = rowOf (V c main_v18) (nodeAt t p) :=
    funext fun k => agg_blk V c t p k
  have ec : (iblk0 V c 2 t : Vec Ideal S2000x1 .f32) (ix2 p (0 : Fin 1)) = cntv (ix1 (nodeAt t p)) := by
    rw [cnt_blk V c t p 0, h8]
    exact Cert.ColumnForms.shapeCast_a_a1_apply cntv Facts₀.shapeCasts_S200000_S200000x1 (nodeAt t p) 0
  have el : (fun k q => (iblk0 V c 3 t : Vec Ideal S30x32 .f32) (ix2 k q)) = matOf (V c main_arg2) :=
    funext fun k => funext fun q => wl_blk V c t k q
  have er : (fun k q => (iblk0 V c 5 t : Vec Ideal S30x32 .f32) (ix2 k q)) = matOf (V c main_arg4) :=
    funext fun k => funext fun q => wr_blk V c t k q
  have eb : (fun q => (iblk0 V c 4 t : Vec Ideal S1x32 .f32) (ix2 (0 : Fin 1) q)) = vecOf bv :=
    funext fun q => by
      rw [b_blk V c t 0 q, h19]
      exact shapeCast_a_1a_apply bv Facts₀.shapeCasts_S32_S1x32 0 q
  rw [ex, ea, ec, el, er, eb]
  rfl

/-- Every row of the output array lies in some point's block: row `r` in point `r / 2000`'s. -/
theorem cover (i : S200000x32.Idx) :
    ∃ t : Fin cfg0.N, (cfg0.win 6).flush t = true ∧ i ∈ ((cfg0.win 6).blk t).view.set := by
  have hi0 : (i 0).val < 200000 := (i 0).isLt
  have hi1 : (i 1).val < 32 := (i 1).isLt
  obtain ⟨t, ht⟩ : ∃ t : Fin cfg0.N, t.val = (i 0).val / 2000 :=
    ⟨⟨(i 0).val / 2000, by rw [show cfg0.N = 100 from N_0]; omega⟩, rfl⟩
  obtain ⟨-, -, -, -, -, -, -, -, -, -, -, -, e0, e1⟩ := idx_facts t
  refine ⟨t, flush0_6 t, ?_⟩
  show i ∈ ((View.whole main_v20).slice (win0_6.rect t)).set
  rw [View.set_slice_whole, Rect.mem_set_unit]
  intro a
  match a with
  | ⟨0, _⟩ =>
    show win0_6.index t 0 * 2000 ≤ (i 0).val ∧ (i 0).val < win0_6.index t 0 * 2000 + 2000
    rw [e0, ht]; omega
  | ⟨1, _⟩ =>
    show win0_6.index t 1 * 32 ≤ (i 1).val ∧ (i 1).val < win0_6.index t 1 * 32 + 32
    rw [e1]; omega

/-- THE OUTPUT ARRAY after the region: `hiddenLayer` of the arrays as the region finds them. -/
theorem final (c : Dev nD) (cntv : (⟨1, ![200000]⟩ : Shape).Idx → EReal) (bv : (⟨1, ![32]⟩ : Shape).Idx → EReal)
    (h8 : (V c main_v8 : S200000x1.Idx → EReal) = shapeCast S200000x1 cntv Facts₀.shapeCasts_S200000_S200000x1)
    (h19 : (V c main_v19 : S1x32.Idx → EReal) = shapeCast S1x32 bv Facts₀.shapeCasts_S32_S1x32) :
    (dat0 V c).arrAt 6 cfg0.N = hiddenLayer (V c main_arg0) (V c main_v18) cntv (V c main_arg2) bv (V c main_arg4) :=
  (dat0 V c).arrAt_eq_of_cover 6 _ (fun t _ => flushed_eq V c t cntv bv h8 h19) cover

end Cert.KernelIdeal.Hidden

end
-- ==== Proof.KernelValue1.lean ====
/-
  The second layer's region: what its write-backs leave in its output array.

  As in the first layer's region, point `t` of the 100-point grid works on rows `2000 t … 2000 t + 1999` of the
  node arrays — here the hidden features, their neighbour sums and the neighbour-count column — and on the whole
  weight and bias arrays. The body's stored value at `(p, q)` is the log-probability `q` of the row of affine
  values of row `p` of the blocks: the two reductions and the broadcasts of their results all stay inside a row.
  So what point `t` writes back is block `t` of `outputLayer` of the arrays as the region finds them, every row
  lies in one point's block, and the output array ends holding `outputLayer`.
-/
import proofs.«102235_j56212531970402_1_alg».proof.Proof.Gen.KernelIdeal.Frame
import proofs.«102235_j56212531970402_1_alg».proof.Proof.LibSageBody
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.SageRows

theorem hz : (![0, 0] : Fin 2 → Nat) = fun _ => 0 := funext fun a => by fin_cases a <;> rfl

/-- The body's stored value at `(p, q)` of the block: log-probability `q` of the affine values of row `p`. -/
theorem pay_apply (cb : Vec Ideal S2000x1 .f32) (ab xb : Vec Ideal S2000x32 .f32) (wl wr : Vec Ideal S32x2 .f32)
    (bb : Vec Ideal S1x2 .f32) (p : Fin 2000) (q : Fin 2) :
    k1_pay1 (F := Ideal) cb ab xb wl wr bb (ix2 p q)
      = logProb (fun j => affine (fun k => xb (ix2 p k)) (fun k => ab (ix2 p k)) (cb (ix2 p (0 : Fin 1)))
          (fun k q => wl (ix2 k q)) (fun k q => wr (ix2 k q)) (fun q => bb (ix2 (0 : Fin 1) q)) j) q := by
  unfold k1_pay1
  simp only [shapeCast_self]
  refine (Body.logProbBlock_apply
    (Body.affineBlock dot_S2000x32_S32x2_S2000x2_1_0_0_1_n_n cb ab xb wl wr bb
      Facts₀.broadcasts_S2000x1_S2000x32 Facts₀.broadcasts_S1x2_S2000x2 Facts₀.bitsLt_bf16_f32)
    Facts₀.reduces_S2000x2_S2000 Facts₀.shapeCasts_S2000_S2000x1 Facts₀.broadcasts_S2000x1_S2000x2 p q).trans ?_
  congr 1
  funext j
  exact Body.affineBlock_apply dot_S2000x32_S32x2_S2000x2_1_0_0_1_n_n rfl rfl rfl rfl rfl rfl cb ab xb wl wr bb
    Facts₀.broadcasts_S2000x1_S2000x32 Facts₀.broadcasts_S1x2_S2000x2 Facts₀.bitsLt_bf16_f32 p j

/-- The printed index maps over the grid: a node window's block row is the point, its block column 0; a weight or
    bias window's block is always block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The node `p` of point `t`'s block is: row `2000 t + p`. -/
def nodeAt (t : Fin cfg1.N) (p : Fin 2000) : Fin 200000 :=
  ⟨2000 * t.val + p.val, by have ht : t.val < 100 := lt_of_lt_of_eq t.isLt N_1; have := p.isLt; omega⟩

/-- Row `p` of the hidden-features block at point `t` is row `2000 t + p` of the array. -/
theorem x_blk (c : Dev nD) (t : Fin cfg1.N) (p : Fin 2000) (k : Fin 32) :
    (iblk1 V c 0 t : Vec Ideal S2000x32 .f32) (ix2 p k) = (V c main_v20 : S200000x32.Idx → EReal) (ix2 (nodeAt t p) k) := by
  obtain ⟨e0, e1, -⟩ := idx_facts t
  unfold iblk1
  rw [View.read_apply]
  show V c main_v20 _ = V c main_v20 _
  congr 1
  funext a
  apply Fin.ext
  match a with
  | ⟨0, _⟩ => show win1_0.index t 0 * 2000 + 1 * p.val = 2000 * t.val + p.val; rw [e0]; omega
  | ⟨1, _⟩ => show win1_0.index t 1 * 32 + 1 * k.val = k.val; rw [e1]; omega

/-- The same for the neighbour sums of the hidden features. -/
theorem agg_blk (c : Dev nD) (t : Fin cfg1.N) (p : Fin 2000) (k : Fin 32) :
    (iblk1 V c 1 t : Vec Ideal S2000x32 .f32) (ix2 p k) = (V c main_v30 : S200000x32.Idx → EReal) (ix2 (nodeAt t p) k) := by
  obtain ⟨-, -, e0, e1, -⟩ := idx_facts t
  unfold iblk1
  rw [View.read_apply]
  show V c main_v30 _ = V c main_v30 _
  congr 1
  funext a
  apply Fin.ext
  match a with
  | ⟨0, _⟩ => show win1_1.index t 0 * 2000 + 1 * p.val = 2000 * t.val + p.val; rw [e0]; omega
  | ⟨1, _⟩ => show win1_1.index t 1 * 32 + 1 * k.val = k.val; rw [e1]; omega

/-- The same for the count column. -/
theorem cnt_blk (c : Dev nD) (t : Fin cfg1.N) (p : Fin 2000) (u : Fin 1) :
    (iblk1 V c 2 t : Vec Ideal S2000x1 .f32) (ix2 p u) = (V c main_v8 : S200000x1.Idx → EReal) (ix2 (nodeAt t p) u) := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t 0 * 2000 + 1 * p.val = 2000 * t.val + p.val; rw [e0]; omega
  | ⟨1, _⟩ => show win1_2.index t 1 * 1 + 1 * u.val = u.val; rw [e1]; omega

/-- A weight window's one block is its whole array. -/
theorem wl_blk (c : Dev nD) (t : Fin cfg1.N) (k : Fin 32) (q : Fin 2) :
    (iblk1 V c 3 t : Vec Ideal S32x2 .f32) (ix2 k q) = (V c main_arg5 : S32x2.Idx → EReal) (ix2 k q) := by
  obtain ⟨-, -, -, -, -, -, e0, e1, -⟩ := idx_facts t
  unfold iblk1
  rw [View.read_apply]
  show V c main_arg5 _ = V c main_arg5 _
  congr 1
  funext a
  apply Fin.ext
  match a with
  | ⟨0, _⟩ => show win1_3.index t 0 * 32 + 1 * k.val = k.val; rw [e0]; omega
  | ⟨1, _⟩ => show win1_3.index t 1 * 2 + 1 * q.val = q.val; rw [e1]; omega

theorem b_blk (c : Dev nD) (t : Fin cfg1.N) (u : Fin 1) (q : Fin 2) :
    (iblk1 V c 4 t : Vec Ideal S1x2 .f32) (ix2 u q) = (V c main_v31 : S1x2.Idx → EReal) (ix2 u q) := by
  obtain ⟨-, -, -, -, -, -, -, -, e0, e1, -⟩ := idx_facts t
  unfold iblk1
  rw [View.read_apply]
  show V c main_v31 _ = V c main_v31 _
  congr 1
  funext a
  apply Fin.ext
  match a with
  | ⟨0, _⟩ => show win1_4.index t 0 * 1 + 1 * u.val = u.val; rw [e0]; omega
  | ⟨1, _⟩ => show win1_4.index t 1 * 2 + 1 * q.val = q.val; rw [e1]; omega

theorem wr_blk (c : Dev nD) (t : Fin cfg1.N) (k : Fin 32) (q : Fin 2) :
    (iblk1 V c 5 t : Vec Ideal S32x2 .f32) (ix2 k q) = (V c main_arg7 : S32x2.Idx → EReal) (ix2 k q) := by
  obtain ⟨-, -, -, -, -, -, -, -, -, -, e0, e1, -⟩ := idx_facts t
  unfold iblk1
  rw [View.read_apply]
  show V c main_arg7 _ = V c main_arg7 _
  congr 1
  funext a
  apply Fin.ext
  match a with
  | ⟨0, _⟩ => show win1_5.index t 0 * 32 + 1 * k.val = k.val; rw [e0]; omega
  | ⟨1, _⟩ => show win1_5.index t 1 * 2 + 1 * q.val = q.val; rw [e1]; omega

/-- Entry `(p, q)` of the output block at point `t` sits at `(2000 t + p, q)` of the output array. -/
theorem out_emb (t : Fin cfg1.N) (p : Fin 2000) (q : Fin 2) :
    ((cfg1.win 6).blk t).view.emb (ix2 p q) = (ix2 (nodeAt t p) q : S200000x2.Idx) := by
  obtain ⟨-, -, -, -, -, -, -, -, -, -, -, -, e0, e1⟩ := idx_facts t
  funext a
  apply Fin.ext
  match a with
  | ⟨0, _⟩ => show win1_6.index t 0 * 2000 + 1 * p.val = 2000 * t.val + p.val; rw [e0]; omega
  | ⟨1, _⟩ => show win1_6.index t 1 * 2 + 1 * q.val = q.val; rw [e1]; omega

/-- WHAT POINT `t` WRITES BACK is block `t` of `outputLayer` of the arrays as the region finds them. -/
theorem flushed_eq (c : Dev nD) (t : Fin cfg1.N)
    (cntv : (⟨1, ![200000]⟩ : Shape).Idx → EReal) (bv : (⟨1, ![2]⟩ : Shape).Idx → EReal)
    (h8 : (V c main_v8 : S200000x1.Idx → EReal) = shapeCast S200000x1 cntv Facts₀.shapeCasts_S200000_S200000x1)
    (h31 : (V c main_v31 : S1x2.Idx → EReal) = shapeCast S1x2 bv Facts₀.shapeCasts_S2_S1x2) :
    (dat1 V c).flushed 6 t = ((cfg1.win 6).blk t).view.read (Elt Ideal)
      (outputLayer (V c main_v20) (V c main_v30) cntv (V c main_arg5) bv (V c main_arg7)) := by
  show (cfg1.win 6).cut (grid1.coords t) ((dat1 V c).after 6 t) = _
  rw [after1_6]
  unfold out1_6
  rw [View.canon_unit_zero hz]
  simp only [View.ld_unit_zero (S := S2000x1) hz, View.ld_unit_zero (S := S2000x32) hz,
    View.ld_unit_zero (S := S32x2) hz, View.ld_unit_zero (S := S1x2) hz]
  funext j
  obtain ⟨p, q, rfl⟩ : ∃ (p : Fin 2000) (q : Fin 2), j = ix2 p q := ⟨j 0, j 1, eq_ix2 j⟩
  refine (pay_apply (iblk1 V c 2 t) (iblk1 V c 1 t) (iblk1 V c 0 t) (iblk1 V c 3 t) (iblk1 V c 5 t) (iblk1 V c 4 t) p q).trans ?_
  rw [View.read_apply, out_emb t p q, outputLayer_apply]
  unfold affineAt
  have ex : (fun k => (iblk1 V c 0 t : Vec Ideal S2000x32 .f32) (ix2 p k)) = rowOf (V c main_v20) (nodeAt t p) :=
    funext fun k => x_blk V c t p k
  have ea : (fun k => (iblk1 V c 1 t : Vec Ideal S2000x32 .f32) (ix2 p k)) = rowOf (V c main_v30) (nodeAt t p) :=
    funext fun k => agg_blk V c t p k
  have ec : (iblk1 V c 2 t : Vec Ideal S2000x1 .f32) (ix2 p (0 : Fin 1)) = cntv (ix1 (nodeAt t p)) := by
    rw [cnt_blk V c t p 0, h8]
    exact Cert.ColumnForms.shapeCast_a_a1_apply cntv Facts₀.shapeCasts_S200000_S200000x1 (nodeAt t p) 0
  have el : (fun k q => (iblk1 V c 3 t : Vec Ideal S32x2 .f32) (ix2 k q)) = matOf (V c main_arg5) :=
    funext fun k => funext fun q => wl_blk V c t k q
  have er : (fun k q => (iblk1 V c 5 t : Vec Ideal S32x2 .f32) (ix2 k q)) = matOf (V c main_arg7) :=
    funext fun k => funext fun q => wr_blk V c t k q
  have eb : (fun q => (iblk1 V c 4 t : Vec Ideal S1x2 .f32) (ix2 (0 : Fin 1) q)) = vecOf bv :=
    funext fun q => by
      rw [b_blk V c t 0 q, h31]
      exact shapeCast_a_1a_apply bv Facts₀.shapeCasts_S2_S1x2 0 q
  rw [ex, ea, ec, el, er, eb]
  rfl

/-- Every row of the output array lies in some point's block: row `r` in point `r / 2000`'s. -/
theorem cover (i : S200000x2.Idx) :
    ∃ t : Fin cfg1.N, (cfg1.win 6).flush t = true ∧ i ∈ ((cfg1.win 6).blk t).view.set := by
  have hi0 : (i 0).val < 200000 := (i 0).isLt
  have hi1 : (i 1).val < 2 := (i 1).isLt
  obtain ⟨t, ht⟩ : ∃ t : Fin cfg1.N, t.val = (i 0).val / 2000 :=
    ⟨⟨(i 0).val / 2000, by rw [show cfg1.N = 100 from N_1]; omega⟩, rfl⟩
  obtain ⟨-, -, -, -, -, -, -, -, -, -, -, -, e0, e1⟩ := idx_facts t
  refine ⟨t, flush1_6 t, ?_⟩
  show i ∈ ((View.whole main_v32).slice (win1_6.rect t)).set
  rw [View.set_slice_whole, Rect.mem_set_unit]
  intro a
  match a with
  | ⟨0, _⟩ =>
    show win1_6.index t 0 * 2000 ≤ (i 0).val ∧ (i 0).val < win1_6.index t 0 * 2000 + 2000
    rw [e0, ht]; omega
  | ⟨1, _⟩ =>
    show win1_6.index t 1 * 2 ≤ (i 1).val ∧ (i 1).val < win1_6.index t 1 * 2 + 2
    rw [e1]; omega

/-- THE OUTPUT ARRAY after the region: `outputLayer` of the arrays as the region finds them. -/
theorem final (c : Dev nD) (cntv : (⟨1, ![200000]⟩ : Shape).Idx → EReal) (bv : (⟨1, ![2]⟩ : Shape).Idx → EReal)
    (h8 : (V c main_v8 : S200000x1.Idx → EReal) = shapeCast S200000x1 cntv Facts₀.shapeCasts_S200000_S200000x1)
    (h31 : (V c main_v31 : S1x2.Idx → EReal) = shapeCast S1x2 bv Facts₀.shapeCasts_S2_S1x2) :
    (dat1 V c).arrAt 6 cfg1.N = outputLayer (V c main_v20) (V c main_v30) cntv (V c main_arg5) bv (V c main_arg7) :=
  (dat1 V c).arrAt_eq_of_cover 6 _ (fun t _ => flushed_eq V c t cntv bv h8 h31) cover

end Cert.KernelIdeal.Output

end
-- ==== Proof.GraphSums.lean ====
/-
  The graph's part of both programs, carried as whole-array functions that are never opened.

  Edge `e` runs from node `src e` to node `dst e` (rows 0 and 1 of the edge array). Summing a feature array over
  each node's incoming edges — gather the source rows (a negative source number counted from the end), scatter-add
  them at the destination rows of a zero array — and counting those edges — scatter-add ones into a zero vector —
  are the same host operations, with the same dimension numbers, in the kernel's program and in the reference.
  Their values on out-of-range node numbers are whatever those operations make of them; the proof never needs to
  know, because both sides apply the SAME functions to equal operands.
-/
import proofs.«102235_j56212531970402_1_alg».proof.Proof.Gen.KernelIdeal
import Idealize.ShloMosaic.PureOps.Ideal

noncomputable section

namespace Cert.Graph

open Cert.KernelIdeal Cert.KernelIdeal.Facts₀ Idealize.ShloMosaic

/-- The destination node numbers of the edges, as a column of scatter indices. -/
def dstCol (ei : IVec S2x6400000 32) : IVec S6400000x1 32 :=
  broadcastInDim S6400000x1 ![0] bcast_S6400000_S6400000x1_0
    (shapeCast _ (extractStridedSlice S1x6400000 ![1, 0] ei slices_S2x6400000_S1x6400000_1_0) shapeCasts_S1x6400000_S6400000)

/-- The source node numbers of the edges, a negative one counted from the end, as a column of gather indices. -/
def srcCol (ei : IVec S2x6400000 32) : IVec S6400000x1 32 :=
  broadcastInDim S6400000x1 ![0] bcast_S6400000_S6400000x1_0
    (select
      (cmpi .slt (shapeCast _ (extractStridedSlice S1x6400000 ![0, 0] ei slices_S2x6400000_S1x6400000_0_0) shapeCasts_S1x6400000_S6400000)
        (broadcastInDim S6400000 ![] bcast_S_S6400000 (constantI S_ 32 0#32)))
      (addi (shapeCast _ (extractStridedSlice S1x6400000 ![0, 0] ei slices_S2x6400000_S1x6400000_0_0) shapeCasts_S1x6400000_S6400000)
        (broadcastInDim S6400000 ![] bcast_S_S6400000 (constantI S_ 32 200000#32)))
      (shapeCast _ (extractStridedSlice S1x6400000 ![0, 0] ei slices_S2x6400000_S1x6400000_0_0) shapeCasts_S1x6400000_S6400000))

/-- The number of incoming edges of every node. -/
def degree (ei : IVec S2x6400000 32) : FVec Ideal S200000 .f32 :=
  Host.scatterAdd scatter_S200000_S6400000x1_S6400000_n_0_0_1
    (broadcastInDim S200000 ![] bcast_S_S200000 (constant S_ .f32 0x00000000#32)) (dstCol ei)
    (broadcastInDim S6400000 ![] bcast_S_S6400000 (constant S_ .f32 0x3F800000#32))

/-- Every node's sum of its incoming edges' source rows, for the 30 input features. -/
def neighbourSum30 (x : FVec Ideal S200000x30 .f32) (ei : IVec S2x6400000 32) : FVec Ideal S200000x30 .f32 :=
  Host.scatterAdd scatter_S200000x30_S6400000x1_S6400000x30_1_0_0_1
    (broadcastInDim S200000x30 ![] bcast_S_S200000x30 (constant S_ .f32 0x00000000#32)) (dstCol ei)
    (Host.gather gather_S200000x30_S6400000x1_S6400000x30_1_0_n_n_0_1_130 x (srcCol ei))

/-- The same for the 32 hidden features. -/
def neighbourSum32 (h : FVec Ideal S200000x32 .f32) (ei : IVec S2x6400000 32) : FVec Ideal S200000x32 .f32 :=
  Host.scatterAdd scatter_S200000x32_S6400000x1_S6400000x32_1_0_0_1
    (broadcastInDim S200000x32 ![] bcast_S_S200000x32 (constant S_ .f32 0x00000000#32)) (dstCol ei)
    (Host.gather gather_S200000x32_S6400000x1_S6400000x32_1_0_n_n_0_1_132 h (srcCol ei))

end Cert.Graph

end
-- ==== Proof.Network.lean ====
/-
  The whole two-layer network as one function of the program's arguments.

  The hidden features are the first layer of the node features, their neighbour sums and the neighbour counts; the
  result is the second layer of the hidden features, THEIR neighbour sums and the same counts. The neighbour sums and
  the counts are the graph's whole-array functions, applied and never opened.
-/
import proofs.«102235_j56212531970402_1_alg».proof.Proof.GraphSums
import proofs.«102235_j56212531970402_1_alg».proof.Proof.LibSageRows

noncomputable section

namespace Cert.Graph

open Cert.KernelIdeal Idealize.ShloMosaic Cert.SageRows

/-- The hidden features of every node. -/
def hidden (x : FVec Ideal S200000x30 .f32) (ei : IVec S2x6400000 32) (w1l : FVec Ideal S30x32 .f32)
    (b1 : FVec Ideal S32 .f32) (w1r : FVec Ideal S30x32 .f32) : FVec Ideal S200000x32 .f32 :=
  hiddenLayer x (neighbourSum30 x ei) (degree ei) w1l b1 w1r

/-- The log-probabilities of every node. -/
def network (x : FVec Ideal S200000x30 .f32) (ei : IVec S2x6400000 32) (w1l : FVec Ideal S30x32 .f32)
    (b1 : FVec Ideal S32 .f32) (w1r : FVec Ideal S30x32 .f32) (w2l : FVec Ideal S32x2 .f32)
    (b2 : FVec Ideal S2 .f32) (w2r : FVec Ideal S32x2 .f32) : FVec Ideal S200000x2 .f32 :=
  outputLayer (hidden x ei w1l b1 w1r) (neighbourSum32 (hidden x ei w1l b1 w1r) ei) (degree ei) w2l b2 w2r

end Cert.Graph

end
-- ==== Proof.KernelValue.lean ====
/-
  The idealized kernel's result as one function of its arguments.

  When the first region is entered, the host has computed the neighbour counts (and reshaped them to a column), the
  neighbour sums of the node features, and reshaped the first bias to a row; the arguments are as launched. So the
  first region's output array ends holding the hidden features `Graph.hidden` of the arguments.
  When the second region is entered, the host has gathered and summed THOSE rows — the first region's output array as
  its write-backs left it —, and reshaped the second bias; the count column, an input of the first region, is as the
  first region found it. So the second region's output array, the program's result, ends holding `Graph.network` of
  the arguments.
-/
import proofs.«102235_j56212531970402_1_alg».proof.Proof.KernelValue0
import proofs.«102235_j56212531970402_1_alg».proof.Proof.KernelValue1
import proofs.«102235_j56212531970402_1_alg».proof.Proof.Network

set_option maxRecDepth 16384

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Cert.SageRows

variable (m : (ℓ : Loc nD τ sig) → Buf (Elt Ideal) ℓ) (ρ : Dev nD → PrngReg) (c : Dev nD)

/-! ## The first region's entry contents -/

theorem V1_arg0 : V1 m ρ c main_arg0 = m ((c : Thread nD τ).loc main_arg0) := by
  show StableHlo.after hostOps0 (W0 m ρ c) (Proc.devRef .tc main_arg0) = _
  dsimp only [hostOps0]
  after_results_simp

theorem V1_arg2 : V1 m ρ c main_arg2 = m ((c : Thread nD τ).loc main_arg2) := by
  show StableHlo.after hostOps0 (W0 m ρ c) (Proc.devRef .tc main_arg2) = _
  dsimp only [hostOps0]
  after_results_simp

theorem V1_arg4 : V1 m ρ c main_arg4 = m ((c : Thread nD τ).loc main_arg4) := by
  show StableHlo.after hostOps0 (W0 m ρ c) (Proc.devRef .tc main_arg4) = _
  dsimp only [hostOps0]
  after_results_simp

/-- The neighbour sums of the node features. -/
theorem V1_v18 : (V1 m ρ c main_v18 : S200000x30.Idx → EReal)
    = Graph.neighbourSum30 (m ((c : Thread nD τ).loc main_arg0)) (m ((c : Thread nD τ).loc main_arg1)) := by
  show StableHlo.after hostOps0 (W0 m ρ c) (Proc.devRef .tc main_v18) = _
  dsimp only [hostOps0]
  after_results_simp
  rfl

/-- The neighbour counts, reshaped to a column. -/
theorem V1_v8 : (V1 m ρ c main_v8 : S200000x1.Idx → EReal)
    = shapeCast S200000x1 (Graph.degree (m ((c : Thread nD τ).loc main_arg1))) Facts₀.shapeCasts_S200000_S200000x1 := by
  show StableHlo.after hostOps0 (W0 m ρ c) (Proc.devRef .tc main_v8) = _
  dsimp only [hostOps0]
  after_results_simp
  rfl

/-- The first bias, reshaped to a row. -/
theorem V1_v19 : (V1 m ρ c main_v19 : S1x32.Idx → EReal)
    = shapeCast S1x32 (m ((c : Thread nD τ).loc main_arg3)) Facts₀.shapeCasts_S32_S1x32 := by
  show StableHlo.after hostOps0 (W0 m ρ c) (Proc.devRef .tc main_v19) = _
  dsimp only [hostOps0]
  after_results_simp
  rfl

/-- The edge ends as the first stretch of host operations leaves them. -/
theorem W1_v1 : (W1 m ρ c (Proc.devRef .tc main_v1) : S6400000.Idx → BitVec 32)
    = shapeCast _ (extractStridedSlice S1x6400000 ![0, 0] (m ((c : Thread nD τ).loc main_arg1)) Facts₀.slices_S2x6400000_S1x6400000_0_0) Facts₀.shapeCasts_S1x6400000_S6400000 := by
  show StableHlo.after hostOps0 (W0 m ρ c) (Proc.devRef .tc main_v1) = _
  dsimp only [hostOps0]
  after_results_simp
  rfl

theorem W1_v3 : (W1 m ρ c (Proc.devRef .tc main_v3) : S6400000.Idx → BitVec 32)
    = shapeCast _ (extractStridedSlice S1x6400000 ![1, 0] (m ((c : Thread nD τ).loc main_arg1)) Facts₀.slices_S2x6400000_S1x6400000_1_0) Facts₀.shapeCasts_S1x6400000_S6400000 := by
  show StableHlo.after hostOps0 (W0 m ρ c) (Proc.devRef .tc main_v3) = _
  dsimp only [hostOps0]
  after_results_simp
  rfl

theorem W1_arg5 : W1 m ρ c (Proc.devRef .tc main_arg5) = m ((c : Thread nD τ).loc main_arg5) := by
  show StableHlo.after hostOps0 (W0 m ρ c) (Proc.devRef .tc main_arg5) = _
  dsimp only [hostOps0]
  after_results_simp

theorem W1_arg6 : W1 m ρ c (Proc.devRef .tc main_arg6) = m ((c : Thread nD τ).loc main_arg6) := by
  show StableHlo.after hostOps0 (W0 m ρ c) (Proc.devRef .tc main_arg6) = _
  dsimp only [hostOps0]
  after_results_simp

theorem W1_arg7 : W1 m ρ c (Proc.devRef .tc main_arg7) = m ((c : Thread nD τ).loc main_arg7) := by
  show StableHlo.after hostOps0 (W0 m ρ c) (Proc.devRef .tc main_arg7) = _
  dsimp only [hostOps0]
  after_results_simp

/-! ## The first region's output array -/

/-- The hidden features: what the first region's write-backs leave in its output array. -/
theorem hidden_eq : (dat0 (V1 m ρ) c).arrAt 6 cfg0.N
    = Graph.hidden (m ((c : Thread nD τ).loc main_arg0)) (m ((c : Thread nD τ).loc main_arg1))
        (m ((c : Thread nD τ).loc main_arg2)) (m ((c : Thread nD τ).loc main_arg3)) (m ((c : Thread nD τ).loc main_arg4)) := by
  refine (Hidden.final (V1 m ρ) c (Graph.degree (m ((c : Thread nD τ).loc main_arg1))) (m ((c : Thread nD τ).loc main_arg3))
    (V1_v8 m ρ c) (V1_v19 m ρ c)).trans ?_
  rw [V1_arg0 m ρ c, V1_v18 m ρ c, V1_arg2 m ρ c, V1_arg4 m ρ c]
  rfl

/-! ## The second region's entry contents -/

/-- The hidden features are the first region's output array. -/
theorem V3_v20 : (V3 m ρ c main_v20 : S200000x32.Idx → EReal)
    = Graph.hidden (m ((c : Thread nD τ).loc main_arg0)) (m ((c : Thread nD τ).loc main_arg1))
        (m ((c : Thread nD τ).loc main_arg2)) (m ((c : Thread nD τ).loc main_arg3)) (m ((c : Thread nD τ).loc main_arg4)) := by
  refine Eq.trans ?_ (hidden_eq m ρ c)
  show StableHlo.after hostOps1 (W2 m ρ c) (Proc.devRef .tc main_v20) = _
  dsimp only [hostOps1]
  after_results_simp
  exact W2_arr m ρ c 6

/-- The neighbour sums of the hidden features. -/
theorem V3_v30 : (V3 m ρ c main_v30 : S200000x32.Idx → EReal)
    = Graph.neighbourSum32 (Graph.hidden (m ((c : Thread nD τ).loc main_arg0)) (m ((c : Thread nD τ).loc main_arg1))
        (m ((c : Thread nD τ).loc main_arg2)) (m ((c : Thread nD τ).loc main_arg3)) (m ((c : Thread nD τ).loc main_arg4)))
        (m ((c : Thread nD τ).loc main_arg1)) := by
  show StableHlo.after hostOps1 (W2 m ρ c) (Proc.devRef .tc main_v30) = _
  dsimp only [hostOps1]
  after_results_simp
  rw [W2_of_ne m ρ c main_v3 (by decide), W2_of_ne m ρ c main_v1 (by decide), W1_v1 m ρ c, W1_v3 m ρ c,
    show W2 m ρ c (Proc.devRef .tc main_v20) = _ from (W2_arr m ρ c 6).trans (hidden_eq m ρ c)]
  rfl

/-- The count column is an input of the first region: it is as the first region found it. -/
theorem V3_v8 : (V3 m ρ c main_v8 : S200000x1.Idx → EReal)
    = shapeCast S200000x1 (Graph.degree (m ((c : Thread nD τ).loc main_arg1))) Facts₀.shapeCasts_S200000_S200000x1 := by
  refine Eq.trans ?_ (V1_v8 m ρ c)
  show StableHlo.after hostOps1 (W2 m ρ c) (Proc.devRef .tc main_v8) = _
  dsimp only [hostOps1]
  after_results_simp
  exact (W2_arr m ρ c 2).trans (((dat0 (V1 m ρ) c).arrAt_in 2 rfl _).trans (A_eq0 (V1 m ρ) c 2))

/-- The second bias, reshaped to a row. -/
theorem V3_v31 : (V3 m ρ c main_v31 : S1x2.Idx → EReal)
    = shapeCast S1x2 (m ((c : Thread nD τ).loc main_arg6)) Facts₀.shapeCasts_S2_S1x2 := by
  show StableHlo.after hostOps1 (W2 m ρ c) (Proc.devRef .tc main_v31) = _
  dsimp only [hostOps1]
  after_results_simp
  rw [W2_of_ne m ρ c main_arg6 (by decide), W1_arg6 m ρ c]
  rfl

theorem V3_arg5 : V3 m ρ c main_arg5 = m ((c : Thread nD τ).loc main_arg5) := by
  show StableHlo.after hostOps1 (W2 m ρ c) (Proc.devRef .tc main_arg5) = _
  dsimp only [hostOps1]
  after_results_simp
  rw [W2_of_ne m ρ c main_arg5 (by decide), W1_arg5 m ρ c]

theorem V3_arg7 : V3 m ρ c main_arg7 = m ((c : Thread nD τ).loc main_arg7) := by
  show StableHlo.after hostOps1 (W2 m ρ c) (Proc.devRef .tc main_arg7) = _
  dsimp only [hostOps1]
  after_results_simp
  rw [W2_of_ne m ρ c main_arg7 (by decide), W1_arg7 m ρ c]

/-! ## The result -/

/-- What the second region's write-backs leave in its output array: the network of the arguments. -/
theorem result : (dat1 (V3 m ρ) c).arrAt 6 cfg1.N
    = Graph.network (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (Output.final (V3 m ρ) c (Graph.degree (m ((c : Thread nD τ).loc main_arg1))) (m ((c : Thread nD τ).loc main_arg6))
    (V3_v8 m ρ c) (V3_v31 m ρ c)).trans ?_
  rw [V3_v20 m ρ c, V3_v30 m ρ c, V3_arg5 m ρ c, V3_arg7 m ρ c]
  rfl

end Cert.KernelIdeal.Whole

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«102235_j56212531970402_1_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.LibHostColumn.lean ====
/-
  Host layout and reduction forms read at an index, in two-axis coordinates: a vector broadcast to a column
  (`broadcast_in_dim` `[a] → [a, 1]` along axis 0), a column broadcast along the rows (`[a, 1] → [a, b]` along axes 0, 1),
  and the host's reduce with an add body along the columns of `[a, b]` from a rank-zero initial value, read at a row at the
  exact values as the initial value plus the sum of the row's entries. General in the extents, the layout forms in the
  element type. (What `jnp.sum(…, axis=1, keepdims=True)` and a subtraction of the result from every column lower to.)
-/
import Idealize.ShloMosaic.Lib.Pipeline.Value
import Idealize.ShloMosaic.Lib.ValueIdx
import Idealize.ShloMosaic.PureOps.Ideal.Laws

noncomputable section

open scoped BigOperators

namespace Cert.HostColumn

open Idealize.ShloMosaic Idealize.ShloMosaic.ValueIdx

variable {α : Type}

/-- `[a] → [a, 1]` along axis 0: entry `(p, u)` is entry `p`. -/
theorem bid_a_a1_apply {a : ℕ} (p : Fin a) (u : Fin 1) (x : (⟨1, ![a]⟩ : Shape).Idx → α)
    (h : (⟨1, ![a]⟩ : Shape).BroadcastsInDim ⟨2, ![a, 1]⟩ ![0]) :
    broadcastInDim ⟨2, ![a, 1]⟩ ![0] h x (ix2 p u) = x (ix1 p) := by
  refine broadcastInDim_apply ![0] h x _ _ fun ax => ?_
  match ax with
  | ⟨0, _⟩ =>
    show p.val = if a = 1 then 0 else p.val
    split
    · have := p.isLt; omega
    · rfl

/-- `[a, 1] → [a, b]` along axes 0, 1: entry `(p, q)` is entry `(p, 0)`. -/
theorem bid_a1_ab_apply {a b : ℕ} (p : Fin a) (q : Fin b) (x : (⟨2, ![a, 1]⟩ : Shape).Idx → α)
    (h : (⟨2, ![a, 1]⟩ : Shape).BroadcastsInDim ⟨2, ![a, b]⟩ ![0, 1]) :
    broadcastInDim ⟨2, ![a, b]⟩ ![0, 1] h x (ix2 p q) = x (ix2 p (0 : Fin 1)) := by
  refine broadcastInDim_apply ![0, 1] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm

/-- The reduced index `r` with the column coordinate `k` put back is `(r, k)`. -/
theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- The host's sum along the columns of `[a, b]`, at row `r`: the initial value plus the sum of the row's entries. -/
theorem hostSum_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init ix0 + ∑ k : Fin b, x (ix2 r k) := by
  simp only [Host.reduceAdd, Ideal.hostReduceAdd_def]
  rw [Ideal.hostReduceAdd_single h' h]
  have e0 : Shape.Idx.first hu = ix0 := funext fun d => d.elim0
  rw [e0]
  exact congrArg (init ix0 + ·) (Finset.sum_congr rfl fun k _ => congrArg x (lift_cols h r k))

end Cert.HostColumn

end
-- ==== Proof.LibHostLayout.lean ====
/-
  Host layout operations read at coordinates: broadcast_in_dim between ranks 1, 2 and 3, a scalar splat, and a pad
  that extends the last axis on its high side. A broadcast_in_dim copies the operand along the new axes and along
  its own unit axes, so an entry of the result is the operand's entry at the coordinates the dimension map keeps
  (0 on a unit axis). A high-side pad of the last axis keeps the operand where the last coordinate is inside the
  operand's extent and holds the padding value beyond it. General in the extents and in the element type.
-/
import Idealize.ShloMosaic.Lib.Pipeline.Value
import Idealize.ShloMosaic.Lib.ValueIdx
import Idealize.ShloMosaic.Lib.KernelVsHost

namespace Cert.HostLayout

open Idealize.ShloMosaic Idealize.ShloMosaic.ValueIdx

variable {α : Type}

/-- A rank-zero operand splat to any shape reads its one entry everywhere. -/
theorem bid_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- [a, b] → [a, b, 1] along axes 0, 1: entry (p, q, u) is entry (p, q). -/
theorem bid_ab_ab1_apply {a b : ℕ} (p : Fin a) (q : Fin b) (u : Fin 1) (x : (⟨2, ![a, b]⟩ : Shape).Idx → α)
    (h : (⟨2, ![a, b]⟩ : Shape).BroadcastsInDim ⟨3, ![a, b, 1]⟩ ![0, 1]) :
    broadcastInDim ⟨3, ![a, b, 1]⟩ ![0, 1] h x (ix3 p q u) = x (ix2 p q) := by
  refine broadcastInDim_apply ![0, 1] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] → [a, b, c] along axes 0, 1, 2: entry (p, q, r) is entry (p, q, 0). -/
theorem bid_ab1_abc_apply {a b c : ℕ} (p : Fin a) (q : Fin b) (r : Fin c) (x : (⟨3, ![a, b, 1]⟩ : Shape).Idx → α)
    (h : (⟨3, ![a, b, 1]⟩ : Shape).BroadcastsInDim ⟨3, ![a, b, c]⟩ ![0, 1, 2]) :
    broadcastInDim ⟨3, ![a, b, c]⟩ ![0, 1, 2] h x (ix3 p q r) = x (ix3 p q (0 : Fin 1)) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if 1 = 1 then 0 else r.val
    exact (if_pos rfl).symm

/-- [c] → [1, 1, c] along axis 2: entry (u, v, r) is entry r. -/
theorem bid_c_11c_apply {c : ℕ} (u v : Fin 1) (r : Fin c) (x : (⟨1, ![c]⟩ : Shape).Idx → α)
    (h : (⟨1, ![c]⟩ : Shape).BroadcastsInDim ⟨3, ![1, 1, c]⟩ ![2]) :
    broadcastInDim ⟨3, ![1, 1, c]⟩ ![2] h x (ix3 u v r) = x (ix1 r) := by
  refine broadcastInDim_apply ![2] h x _ _ fun ax => ?_
  match ax with
  | ⟨0, _⟩ =>
    show r.val = if c = 1 then 0 else r.val
    split
    · have := r.isLt; omega
    · rfl

/-- [1, 1, c] → [a, b, c] along axes 0, 1, 2: entry (p, q, r) is entry (0, 0, r). -/
theorem bid_11c_abc_apply {a b c : ℕ} (p : Fin a) (q : Fin b) (r : Fin c) (x : (⟨3, ![1, 1, c]⟩ : Shape).Idx → α)
    (h : (⟨3, ![1, 1, c]⟩ : Shape).BroadcastsInDim ⟨3, ![a, b, c]⟩ ![0, 1, 2]) :
    broadcastInDim ⟨3, ![a, b, c]⟩ ![0, 1, 2] h x (ix3 p q r) = x (ix3 (0 : Fin 1) (0 : Fin 1) r) := by
  refine broadcastInDim_apply ![0, 1, 2] h x _ _ fun ax => ?_
  match ax with
  | ⟨0, _⟩ =>
    show 0 = if 1 = 1 then 0 else p.val
    exact (if_pos rfl).symm
  | ⟨1, _⟩ =>
    show 0 = if 1 = 1 then 0 else q.val
    exact (if_pos rfl).symm
  | ⟨2, _⟩ =>
    show r.val = if c = 1 then 0 else r.val
    split
    · have := r.isLt; omega
    · rfl

/-- [a, c] → [a, 1, c] along axes 0, 2: entry (p, u, r) is entry (p, r). -/
theorem bid_ac_a1c_apply {a c : ℕ} (p : Fin a) (u : Fin 1) (r : Fin c) (x : (⟨2, ![a, c]⟩ : Shape).Idx → α)
    (h : (⟨2, ![a, c]⟩ : Shape).BroadcastsInDim ⟨3, ![a, 1, c]⟩ ![0, 2]) :
    broadcastInDim ⟨3, ![a, 1, c]⟩ ![0, 2] h x (ix3 p u r) = x (ix2 p r) := by
  refine broadcastInDim_apply ![0, 2] h x _ _ fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- [a, 1, c] → [a, b, c] along axes 0, 1, 2: entry (p, q, r) is entry (p, 0, r). -/
theorem bid_a1c_abc_apply {a b c : ℕ} (p : Fin a) (q : Fin b) (r : Fin c) (x : (⟨3, ![a, 1, c]⟩ : Shape).Idx → α)
    (h : (⟨3, ![a, 1, c]⟩ : Shape).BroadcastsInDim ⟨3, ![a, b, c]⟩ ![0, 1, 2]) :
    broadcastInDim ⟨3, ![a, b, c]⟩ ![0, 1, 2] h x (ix3 p q r) = x (ix3 p (0 : Fin 1) r) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm
  | ⟨2, _⟩ =>
    show r.val = if c = 1 then 0 else r.val
    split
    · have := r.isLt; omega
    · rfl

/-- [c] → [1, c] along axis 1: entry (u, r) is entry r. -/
theorem bid_c_1c_apply {c : ℕ} (u : Fin 1) (r : Fin c) (x : (⟨1, ![c]⟩ : Shape).Idx → α)
    (h : (⟨1, ![c]⟩ : Shape).BroadcastsInDim ⟨2, ![1, c]⟩ ![1]) :
    broadcastInDim ⟨2, ![1, c]⟩ ![1] h x (ix2 u r) = x (ix1 r) := by
  refine broadcastInDim_apply ![1] h x _ _ fun ax => ?_
  match ax with
  | ⟨0, _⟩ =>
    show r.val = if c = 1 then 0 else r.val
    split
    · have := r.isLt; omega
    · rfl

/-- [1, c] → [a, c] along axes 0, 1: entry (p, r) is entry (0, r). -/
theorem bid_1c_ac_apply {a c : ℕ} (p : Fin a) (r : Fin c) (x : (⟨2, ![1, c]⟩ : Shape).Idx → α)
    (h : (⟨2, ![1, c]⟩ : Shape).BroadcastsInDim ⟨2, ![a, c]⟩ ![0, 1]) :
    broadcastInDim ⟨2, ![a, c]⟩ ![0, 1] h x (ix2 p r) = x (ix2 (0 : Fin 1) r) := by
  refine broadcastInDim_apply ![0, 1] h x _ _ fun ax => ?_
  match ax with
  | ⟨0, _⟩ =>
    show 0 = if 1 = 1 then 0 else p.val
    exact (if_pos rfl).symm
  | ⟨1, _⟩ =>
    show r.val = if c = 1 then 0 else r.val
    split
    · have := r.isLt; omega
    · rfl

/-! ## The last axis padded on its high side -/

/-- A vector of n entries padded to N on the high side: entry j inside the operand is the operand's. -/
theorem pad1_inside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : j.val < n) :
    pad ⟨1, ![N]⟩ ![0] ![p] ![0] x v h hu (ix1 j) = x (ix1 (⟨j.val, hj⟩ : Fin n)) :=
  pad_apply_of_inside ![0] ![p] ![0] x v h hu _ _ fun ax => by
    match ax with
    | ⟨0, _⟩ => show j.val = 0 + j.val * (0 + 1); omega

/-- Beyond the operand it is the padding value. -/
theorem pad1_outside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : ¬j.val < n) :
    pad ⟨1, ![N]⟩ ![0] ![p] ![0] x v h hu (ix1 j) = v (Shape.Idx.first hu) :=
  pad_apply_of_not_inside ![0] ![p] ![0] x v h hu _ (0 : Fin 1) fun hh => hj (by
    have h3 : (j.val - 0) / (0 + 1) < n := hh.2.2
    simpa using h3)

/-- A matrix [a, n] whose rows are padded to N on the high side: entry (i, j) with j inside is the operand's. -/
theorem pad2_inside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : j.val < n) :
    pad ⟨2, ![a, N]⟩ ![0, 0] ![0, p] ![0, 0] x v h hu (ix2 i j) = x (ix2 i (⟨j.val, hj⟩ : Fin n)) :=
  pad_apply_of_inside ![0, 0] ![0, p] ![0, 0] x v h hu _ _ fun ax => by
    match ax with
    | ⟨0, _⟩ => show i.val = 0 + i.val * (0 + 1); omega
    | ⟨1, _⟩ => show j.val = 0 + j.val * (0 + 1); omega

/-- Beyond the rows' extent it is the padding value. -/
theorem pad2_outside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : ¬j.val < n) :
    pad ⟨2, ![a, N]⟩ ![0, 0] ![0, p] ![0, 0] x v h hu (ix2 i j) = v (Shape.Idx.first hu) :=
  pad_apply_of_not_inside ![0, 0] ![0, p] ![0, 0] x v h hu _ (1 : Fin 2) fun hh => hj (by
    have h3 : (j.val - 0) / (0 + 1) < n := hh.2.2
    simpa using h3)

end Cert.HostLayout
-- ==== Proof.LibSageHost.lean ====
/-
  A layer's chain of host operations on whole arrays, read at a node.

  The host holds the node features `x`, the summed neighbour features `agg`, the neighbour counts as a VECTOR
  `cnt : [M]`, the weights, and the bias as a vector `b : [N]`. It takes `max cnt 1` against a splat of one, turns it
  into a column and broadcasts the column along the features, divides, multiplies by the weights, adds the bias (made
  a one-row matrix, then broadcast over the rows), and adds the second product. Read at `(p, q)` this is the same
  `affine` of row `p` that a kernel body computes on a block: a host matrix product is the textbook sum, each
  broadcast reads its operand at the coordinates it keeps.

  The first layer then takes the maximum with a zero splat; the second turns each row into log-probabilities —
  the row maximum by a reduce from minus infinity, once more maximised against a splat of minus infinity (which
  changes nothing: a fold of `max` from `b` is never below `b`), the sum of exponentials by a reduce from zero.
-/
import proofs.«102235_j56212531970402_1_alg».proof.Proof.LibSageRows
import proofs.«102235_j56212531970402_1_alg».proof.Proof.LibHostDotPlain
import proofs.«102235_j56212531970402_1_alg».proof.Proof.LibHostColumn
import proofs.«102235_j56212531970402_1_alg».proof.Proof.LibHostLayout
import proofs.«102235_j56212531970402_1_alg».proof.Proof.LibAxisReads

noncomputable section

open scoped BigOperators

namespace Cert.SageRows.HostTerm

open Idealize.ShloMosaic Idealize.ShloMosaic.ValueIdx Cert.SageRows

variable {M K N : ℕ}

/-- The affine chain of a layer on whole arrays, as the host spells it. -/
def affineHost (d : DotDims ⟨2, ![M, K]⟩ ⟨2, ![K, N]⟩ ⟨2, ![M, N]⟩)
    (x agg : FVec Ideal ⟨2, ![M, K]⟩ .f32) (cnt : FVec Ideal ⟨1, ![M]⟩ .f32)
    (wl : FVec Ideal ⟨2, ![K, N]⟩ .f32) (b : FVec Ideal ⟨1, ![N]⟩ .f32) (wr : FVec Ideal ⟨2, ![K, N]⟩ .f32)
    (h1 : (⟨0, ![]⟩ : Shape).BroadcastsInDim ⟨1, ![M]⟩ ![])
    (hcol : (⟨1, ![M]⟩ : Shape).BroadcastsInDim ⟨2, ![M, 1]⟩ ![0])
    (hcolK : (⟨2, ![M, 1]⟩ : Shape).BroadcastsInDim ⟨2, ![M, K]⟩ ![0, 1])
    (hrow : (⟨1, ![N]⟩ : Shape).BroadcastsInDim ⟨2, ![1, N]⟩ ![1])
    (hrowM : (⟨2, ![1, N]⟩ : Shape).BroadcastsInDim ⟨2, ![M, N]⟩ ![0, 1]) : FVec Ideal ⟨2, ![M, N]⟩ .f32 :=
  addf (addf (Host.dotGeneral d none
        (Host.divf agg (broadcastInDim (s := ⟨2, ![M, 1]⟩) ⟨2, ![M, K]⟩ ![0, 1] hcolK (broadcastInDim (s := ⟨1, ![M]⟩) ⟨2, ![M, 1]⟩ ![0] hcol
          (maximumf cnt (broadcastInDim (s := ⟨0, ![]⟩) ⟨1, ![M]⟩ ![] h1 (constant ⟨0, ![]⟩ .f32 0x3F800000#32))))))
        wl)
      (broadcastInDim (s := ⟨2, ![1, N]⟩) ⟨2, ![M, N]⟩ ![0, 1] hrowM (broadcastInDim (s := ⟨1, ![N]⟩) ⟨2, ![1, N]⟩ ![1] hrow b)))
    (Host.dotGeneral d none x wr)

/-- The host's quotient at an index is the exact quotient of the entries. -/
theorem hostDivf_apply {s : Shape} (a b : FVec Ideal s .f32) (i : s.Idx) : Host.divf a b i = Ideal.div (a i) (b i) := rfl

/-- The host's affine chain at `(p, q)` is `affine` of row `p`. -/
theorem affineHost_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x agg : FVec Ideal ⟨2, ![M, K]⟩ .f32) (cnt : FVec Ideal ⟨1, ![M]⟩ .f32)
    (wl : FVec Ideal ⟨2, ![K, N]⟩ .f32) (b : FVec Ideal ⟨1, ![N]⟩ .f32) (wr : FVec Ideal ⟨2, ![K, N]⟩ .f32)
    (h1 : (⟨0, ![]⟩ : Shape).BroadcastsInDim ⟨1, ![M]⟩ ![])
    (hcol : (⟨1, ![M]⟩ : Shape).BroadcastsInDim ⟨2, ![M, 1]⟩ ![0])
    (hcolK : (⟨2, ![M, 1]⟩ : Shape).BroadcastsInDim ⟨2, ![M, K]⟩ ![0, 1])
    (hrow : (⟨1, ![N]⟩ : Shape).BroadcastsInDim ⟨2, ![1, N]⟩ ![1])
    (hrowM : (⟨2, ![1, N]⟩ : Shape).BroadcastsInDim ⟨2, ![M, N]⟩ ![0, 1]) (p : Fin M) (q : Fin N) :
    affineHost d x agg cnt wl b wr h1 hcol hcolK hrow hrowM (ix2 p q) = affineAt x agg cnt wl b wr p q := by
  unfold affineHost affineAt affine
  rw [addf_apply, addf_apply, Cert.HostLayout.bid_1c_ac_apply p q _ hrowM, Cert.HostLayout.bid_c_1c_apply 0 q b hrow]
  simp only [Host.dotGeneral]
  rw [Cert.HostDotPlain.dotGeneral_plain_apply d hlc hrc hln hrn hlb hrb none .single _ wl p q,
    Cert.HostDotPlain.dotGeneral_plain_apply d hlc hrc hln hrn hlb hrb none .single x wr p q]
  congr 2
  refine Finset.sum_congr rfl fun k _ => ?_
  rw [hostDivf_apply, Cert.HostColumn.bid_a1_ab_apply p k _ hcolK, Cert.HostColumn.bid_a_a1_apply p 0 _ hcol,
    maximumf_apply, Cert.HostLayout.bid_scalar_apply]
  rfl

/-- The first layer as the host spells it: the affine chain against a zero splat. -/
def hiddenHost (z : FVec Ideal ⟨2, ![M, N]⟩ .f32) (h0 : (⟨0, ![]⟩ : Shape).BroadcastsInDim ⟨2, ![M, N]⟩ ![]) :
    FVec Ideal ⟨2, ![M, N]⟩ .f32 :=
  maximumf z (broadcastInDim (s := ⟨0, ![]⟩) ⟨2, ![M, N]⟩ ![] h0 (constant ⟨0, ![]⟩ .f32 0x00000000#32))

theorem hiddenHost_apply (z : FVec Ideal ⟨2, ![M, N]⟩ .f32) (h0 : (⟨0, ![]⟩ : Shape).BroadcastsInDim ⟨2, ![M, N]⟩ ![])
    (i : (⟨2, ![M, N]⟩ : Shape).Idx) : hiddenHost z h0 i = max (z i) zero := by
  unfold hiddenHost
  rw [maximumf_apply, Cert.HostLayout.bid_scalar_apply]
  rfl

/-- A row's maximum as the host computes it: the reduce, then once more against a splat of minus infinity, as a
    column broadcast over the row. -/
def rowMaxHost (z : FVec Ideal ⟨2, ![M, N]⟩ .f32) (hred : (⟨2, ![M, N]⟩ : Shape).ReducesTo [1] ⟨1, ![M]⟩)
    (hS : 0 < (⟨0, ![]⟩ : Shape).numel) (h1 : (⟨0, ![]⟩ : Shape).BroadcastsInDim ⟨1, ![M]⟩ ![])
    (hcol : (⟨1, ![M]⟩ : Shape).BroadcastsInDim ⟨2, ![M, 1]⟩ ![0])
    (hcolN : (⟨2, ![M, 1]⟩ : Shape).BroadcastsInDim ⟨2, ![M, N]⟩ ![0, 1]) : FVec Ideal ⟨2, ![M, N]⟩ .f32 :=
  broadcastInDim (s := ⟨2, ![M, 1]⟩) ⟨2, ![M, N]⟩ ![0, 1] hcolN (broadcastInDim (s := ⟨1, ![M]⟩) ⟨2, ![M, 1]⟩ ![0] hcol
    (maximumf (broadcastInDim (s := ⟨0, ![]⟩) ⟨1, ![M]⟩ ![] h1 (constant ⟨0, ![]⟩ .f32 0xFF800000#32))
      (Host.reduce FloatOps.maximumf z (constant ⟨0, ![]⟩ .f32 0xFF800000#32) hred hS)))

theorem rowMaxHost_apply (z : FVec Ideal ⟨2, ![M, N]⟩ .f32) (hred : (⟨2, ![M, N]⟩ : Shape).ReducesTo [1] ⟨1, ![M]⟩)
    (hS : 0 < (⟨0, ![]⟩ : Shape).numel) (h1 : (⟨0, ![]⟩ : Shape).BroadcastsInDim ⟨1, ![M]⟩ ![])
    (hcol : (⟨1, ![M]⟩ : Shape).BroadcastsInDim ⟨2, ![M, 1]⟩ ![0])
    (hcolN : (⟨2, ![M, 1]⟩ : Shape).BroadcastsInDim ⟨2, ![M, N]⟩ ![0, 1]) (p : Fin M) (k : Fin N) :
    rowMaxHost z hred hS h1 hcol hcolN (ix2 p k) = rowMax (fun j => z (ix2 p j)) := by
  unfold rowMaxHost rowMax
  rw [Cert.HostColumn.bid_a1_ab_apply p k _ hcolN, Cert.HostColumn.bid_a_a1_apply p 0 _ hcol, maximumf_apply,
    Cert.HostLayout.bid_scalar_apply,
    Cert.AxisReads.hostMax_cols z _ hred ⟨hred.1, Nat.one_pos, hred.2⟩ hS p]
  exact max_init_fold _ _ _

/-- The second layer's closing chain as the host spells it, on whole arrays. -/
def logProbHost (z : FVec Ideal ⟨2, ![M, N]⟩ .f32) (hred : (⟨2, ![M, N]⟩ : Shape).ReducesTo [1] ⟨1, ![M]⟩)
    (hS : 0 < (⟨0, ![]⟩ : Shape).numel) (h1 : (⟨0, ![]⟩ : Shape).BroadcastsInDim ⟨1, ![M]⟩ ![])
    (hcol : (⟨1, ![M]⟩ : Shape).BroadcastsInDim ⟨2, ![M, 1]⟩ ![0])
    (hcolN : (⟨2, ![M, 1]⟩ : Shape).BroadcastsInDim ⟨2, ![M, N]⟩ ![0, 1]) : FVec Ideal ⟨2, ![M, N]⟩ .f32 :=
  subf (subf z (rowMaxHost z hred hS h1 hcol hcolN))
    (broadcastInDim (s := ⟨2, ![M, 1]⟩) ⟨2, ![M, N]⟩ ![0, 1] hcolN (Host.log (broadcastInDim (s := ⟨1, ![M]⟩) ⟨2, ![M, 1]⟩ ![0] hcol
      (Host.reduceAdd (Host.exp (subf z (rowMaxHost z hred hS h1 hcol hcolN))) (constant ⟨0, ![]⟩ .f32 0x00000000#32) hred hS))))

/-- The host's closing chain at `(p, q)` is `logProb` of row `p`. -/
theorem logProbHost_apply (z : FVec Ideal ⟨2, ![M, N]⟩ .f32) (hred : (⟨2, ![M, N]⟩ : Shape).ReducesTo [1] ⟨1, ![M]⟩)
    (hS : 0 < (⟨0, ![]⟩ : Shape).numel) (h1 : (⟨0, ![]⟩ : Shape).BroadcastsInDim ⟨1, ![M]⟩ ![])
    (hcol : (⟨1, ![M]⟩ : Shape).BroadcastsInDim ⟨2, ![M, 1]⟩ ![0])
    (hcolN : (⟨2, ![M, 1]⟩ : Shape).BroadcastsInDim ⟨2, ![M, N]⟩ ![0, 1]) (p : Fin M) (q : Fin N) :
    logProbHost z hred hS h1 hcol hcolN (ix2 p q) = logProb (fun j => z (ix2 p j)) q := by
  unfold logProbHost logProb
  rw [subf_apply, subf_apply, rowMaxHost_apply z hred hS h1 hcol hcolN p q, Cert.HostColumn.bid_a1_ab_apply p q _ hcolN]
  show _ - Ideal.log (broadcastInDim (s := ⟨1, ![M]⟩) ⟨2, ![M, 1]⟩ ![0] hcol _ (ix2 p (0 : Fin 1))) = _
  rw [Cert.HostColumn.bid_a_a1_apply p 0 _ hcol,
    Cert.HostColumn.hostSum_cols _ _ hred ⟨hred.1, Nat.one_pos, hred.2⟩ hS p]
  have e0 : (constant (F := Ideal) ⟨0, ![]⟩ .f32 0x00000000#32) ix0 = 0 := Ideal.ofBits_zero_f32
  rw [e0, zero_add]
  congr 2
  refine Finset.sum_congr rfl fun k _ => ?_
  show Ideal.exp (subf z _ (ix2 p k)) = _
  rw [subf_apply, rowMaxHost_apply z hred hS h1 hcol hcolN p k]

/-- The host's first layer on whole arrays IS `hiddenLayer`. -/
theorem hiddenHost_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x agg : FVec Ideal ⟨2, ![M, K]⟩ .f32) (cnt : FVec Ideal ⟨1, ![M]⟩ .f32)
    (wl : FVec Ideal ⟨2, ![K, N]⟩ .f32) (b : FVec Ideal ⟨1, ![N]⟩ .f32) (wr : FVec Ideal ⟨2, ![K, N]⟩ .f32)
    (h1 : (⟨0, ![]⟩ : Shape).BroadcastsInDim ⟨1, ![M]⟩ ![])
    (hcol : (⟨1, ![M]⟩ : Shape).BroadcastsInDim ⟨2, ![M, 1]⟩ ![0])
    (hcolK : (⟨2, ![M, 1]⟩ : Shape).BroadcastsInDim ⟨2, ![M, K]⟩ ![0, 1])
    (hrow : (⟨1, ![N]⟩ : Shape).BroadcastsInDim ⟨2, ![1, N]⟩ ![1])
    (hrowM : (⟨2, ![1, N]⟩ : Shape).BroadcastsInDim ⟨2, ![M, N]⟩ ![0, 1])
    (h0 : (⟨0, ![]⟩ : Shape).BroadcastsInDim ⟨2, ![M, N]⟩ ![]) :
    hiddenHost (affineHost d x agg cnt wl b wr h1 hcol hcolK hrow hrowM) h0 = hiddenLayer x agg cnt wl b wr := by
  funext i
  obtain ⟨p, q, rfl⟩ : ∃ (p : Fin M) (q : Fin N), i = ix2 p q := ⟨i 0, i 1, eq_ix2 i⟩
  rw [hiddenHost_apply, affineHost_apply d hlc hrc hln hrn hlb hrb, hiddenLayer_apply]

/-- The host's second layer on whole arrays IS `outputLayer`. -/
theorem logProbHost_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x agg : FVec Ideal ⟨2, ![M, K]⟩ .f32) (cnt : FVec Ideal ⟨1, ![M]⟩ .f32)
    (wl : FVec Ideal ⟨2, ![K, N]⟩ .f32) (b : FVec Ideal ⟨1, ![N]⟩ .f32) (wr : FVec Ideal ⟨2, ![K, N]⟩ .f32)
    (h1 : (⟨0, ![]⟩ : Shape).BroadcastsInDim ⟨1, ![M]⟩ ![])
    (hcol : (⟨1, ![M]⟩ : Shape).BroadcastsInDim ⟨2, ![M, 1]⟩ ![0])
    (hcolK : (⟨2, ![M, 1]⟩ : Shape).BroadcastsInDim ⟨2, ![M, K]⟩ ![0, 1])
    (hrow : (⟨1, ![N]⟩ : Shape).BroadcastsInDim ⟨2, ![1, N]⟩ ![1])
    (hrowM : (⟨2, ![1, N]⟩ : Shape).BroadcastsInDim ⟨2, ![M, N]⟩ ![0, 1])
    (hred : (⟨2, ![M, N]⟩ : Shape).ReducesTo [1] ⟨1, ![M]⟩) (hS : 0 < (⟨0, ![]⟩ : Shape).numel)
    (hcolN : (⟨2, ![M, 1]⟩ : Shape).BroadcastsInDim ⟨2, ![M, N]⟩ ![0, 1]) :
    logProbHost (affineHost d x agg cnt wl b wr h1 hcol hcolK hrow hrowM) hred hS h1 hcol hcolN
      = outputLayer x agg cnt wl b wr := by
  funext i
  obtain ⟨p, q, rfl⟩ : ∃ (p : Fin M) (q : Fin N), i = ix2 p q := ⟨i 0, i 1, eq_ix2 i⟩
  rw [logProbHost_apply, outputLayer_apply]
  congr 1
  funext j
  exact affineHost_apply d hlc hrc hln hrn hlb hrb x agg cnt wl b wr h1 hcol hcolK hrow hrowM p j

end Cert.SageRows.HostTerm

end
-- ==== Proof.LibAfterAppend.lean ====
/-
  A straight line of host operations run in two stretches: the contents after the whole line are the contents after
  the second stretch started from the contents after the first. (The contents after a line are a left fold of the
  operations' results.)
-/
import Idealize.ShloMosaic.Lib.StableHlo.Run

namespace Cert.AfterAppend

open Idealize.ShloMosaic Idealize.ShloMosaic.StableHlo

variable {nD : Nat} {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.AfterAppend
-- ==== Proof.RefValue.lean ====
/-
  The idealized reference's result as one function of its arguments.

  The reference is a straight line of 84 host operations. Its first 38 end with the hidden features: the neighbour
  sums of the node features, the neighbour counts, the first layer's affine chain and the maximum with zero — the
  host's spelling of `hiddenLayer`. The other 46, started from whatever the first 38 leave, gather and sum the hidden
  features, count the neighbours once more, and apply the second layer's affine chain and the row log-probabilities
  — the host's spelling of `outputLayer`. The contents after the whole line are the contents after the second stretch
  started from the contents after the first, so the result is `Graph.network` of the arguments.

  The operations of the two outlined functions name their buffers by typed references, whose values are moved to
  the buffer's type and back along an equation of types; each such move of a value there and back is the identity,
  and at the four buffers where an outlined function meets the main line the move is along an equation between
  equal types.
-/
import proofs.«102235_j56212531970402_1_alg».proof.Proof.RefRunPatched
import proofs.«102235_j56212531970402_1_alg».proof.Proof.LibSageHost
import proofs.«102235_j56212531970402_1_alg».proof.Proof.Network
import proofs.«102235_j56212531970402_1_alg».proof.Proof.LibAfterAppend

set_option maxRecDepth 16384

noncomputable section

open Idealize.ShloMosaic Idealize.ShloMosaic.TcCoe Idealize.SL.Sem Idealize.ShloMosaic.StableHlo

namespace Cert.ReferenceIdeal.Hand

open Cert.ReferenceIdeal Cert.SageRows Cert.SageRows.HostTerm

/-! ## Moves along a typed reference's equation of types -/

/-- A value moved to the buffer's type and back is the value. -/
theorem ofBuf_toBuf {T : BufTy} (x : TRef sig T) (v : T.Contents (Elt Ideal)) : x.ofBuf (x.toBuf v) = v := by
  obtain ⟨r, rfl, hd, hu⟩ := x
  rfl

/-- Where an outlined function meets the main line the buffer's type IS the value's. -/
theorem ofBuf_v28 (h1 h2 h3) (v : main_v28.ty.Contents (Elt Ideal)) :
    (TRef.of (T := ⟨S200000x32, .f32⟩) main_v28 h1 h2 h3).ofBuf v = v := rfl
theorem toBuf_v29 (h1 h2 h3) (v : (⟨S200000x32, .f32⟩ : BufTy).Contents (Elt Ideal)) :
    (TRef.of (T := ⟨S200000x32, .f32⟩) main_v29 h1 h2 h3).toBuf v = v := rfl
theorem ofBuf_v54 (h1 h2 h3) (v : main_v54.ty.Contents (Elt Ideal)) :
    (TRef.of (T := ⟨S200000x2, .f32⟩) main_v54 h1 h2 h3).ofBuf v = v := rfl
theorem toBuf_v55 (h1 h2 h3) (v : (⟨S200000x2, .f32⟩ : BufTy).Contents (Elt Ideal)) :
    (TRef.of (T := ⟨S200000x2, .f32⟩) main_v55 h1 h2 h3).toBuf v = v := rfl

variable (m : (ℓ : Loc nD τ sig) → Buf (Elt Ideal) ℓ) (c : Dev nD)

/-! ## The first 38 operations -/

/-- They leave the hidden features in `main_v29`. -/
theorem first_v29 :
    (after (List.take 38 (ValueP.ops (F := Ideal))) (launchContents m c) (Proc.devRef .tc main_v29) : S200000x32.Idx → EReal)
      = Graph.hidden (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  simp only [ValueP.ops, List.take_succ_cons, List.take_zero]
  after_results_simp
  simp only [ofBuf_toBuf, ofBuf_v28, toBuf_v29]
  refine Eq.trans ?_ (hiddenHost_eq dot_S200000x30_S30x32_S200000x32_1_0_0_1_n_n rfl rfl rfl rfl rfl rfl
    (m ((c.tc : Thread nD τ).loc main_arg0))
    (Graph.neighbourSum30 (m ((c.tc : Thread nD τ).loc main_arg0)) (m ((c.tc : Thread nD τ).loc main_arg1)))
    (Graph.degree (m ((c.tc : Thread nD τ).loc main_arg1)))
    (m ((c.tc : Thread nD τ).loc main_arg2)) (m ((c.tc : Thread nD τ).loc main_arg3)) (m ((c.tc : Thread nD τ).loc main_arg4))
    Facts₀.bcast_S_S200000 Facts₀.bcast_S200000_S200000x1_0 Facts₀.bcast_S200000x1_S200000x30_0_1
    Facts₀.bcast_S32_S1x32_1 Facts₀.bcast_S1x32_S200000x32_0_1 Facts₀.bcast_S_S200000x32)
  rfl

/-- The edge ends, and the second layer's weights and bias, are untouched arguments or slices of one. -/
theorem first_v1 :
    (after (List.take 38 (ValueP.ops (F := Ideal))) (launchContents m c) (Proc.devRef .tc main_v1) : S6400000.Idx → BitVec 32)
      = shapeCast _ (extractStridedSlice S1x6400000 ![0, 0] (m ((c.tc : Thread nD τ).loc main_arg1)) Facts₀.slices_S2x6400000_S1x6400000_0_0) Facts₀.shapeCasts_S1x6400000_S6400000 := by
  simp only [ValueP.ops, List.take_succ_cons, List.take_zero]
  after_results_simp
  rfl

theorem first_v3 :
    (after (List.take 38 (ValueP.ops (F := Ideal))) (launchContents m c) (Proc.devRef .tc main_v3) : S6400000.Idx → BitVec 32)
      = shapeCast _ (extractStridedSlice S1x6400000 ![1, 0] (m ((c.tc : Thread nD τ).loc main_arg1)) Facts₀.slices_S2x6400000_S1x6400000_1_0) Facts₀.shapeCasts_S1x6400000_S6400000 := by
  simp only [ValueP.ops, List.take_succ_cons, List.take_zero]
  after_results_simp
  rfl

theorem first_arg5 : after (List.take 38 (ValueP.ops (F := Ideal))) (launchContents m c) (Proc.devRef .tc main_arg5)
    = m ((c.tc : Thread nD τ).loc main_arg5) := by
  simp only [ValueP.ops, List.take_succ_cons, List.take_zero]
  after_results_simp

theorem first_arg6 : after (List.take 38 (ValueP.ops (F := Ideal))) (launchContents m c) (Proc.devRef .tc main_arg6)
    = m ((c.tc : Thread nD τ).loc main_arg6) := by
  simp only [ValueP.ops, List.take_succ_cons, List.take_zero]
  after_results_simp

theorem first_arg7 : after (List.take 38 (ValueP.ops (F := Ideal))) (launchContents m c) (Proc.devRef .tc main_arg7)
    = m ((c.tc : Thread nD τ).loc main_arg7) := by
  simp only [ValueP.ops, List.take_succ_cons, List.take_zero]
  after_results_simp

/-! ## The other 46 operations, from any contents -/

/-- From contents `W` holding hidden features `h`, the edge ends of `ei` and the second layer's weights and bias, the
    last 46 operations leave the second layer of `h` in `main_v55`. -/
theorem second_v55 (W : Valuation τ sig (Elt Ideal)) (h : FVec Ideal S200000x32 .f32) (ei : IVec S2x6400000 32)
    (w2l : FVec Ideal S32x2 .f32) (b2 : FVec Ideal S2 .f32) (w2r : FVec Ideal S32x2 .f32)
    (h29 : (W (Proc.devRef .tc main_v29) : S200000x32.Idx → EReal) = h)
    (h1 : (W (Proc.devRef .tc main_v1) : S6400000.Idx → BitVec 32)
      = shapeCast _ (extractStridedSlice S1x6400000 ![0, 0] ei Facts₀.slices_S2x6400000_S1x6400000_0_0) Facts₀.shapeCasts_S1x6400000_S6400000)
    (h3 : (W (Proc.devRef .tc main_v3) : S6400000.Idx → BitVec 32)
      = shapeCast _ (extractStridedSlice S1x6400000 ![1, 0] ei Facts₀.slices_S2x6400000_S1x6400000_1_0) Facts₀.shapeCasts_S1x6400000_S6400000)
    (h5 : (W (Proc.devRef .tc main_arg5) : S32x2.Idx → EReal) = w2l)
    (h6 : (W (Proc.devRef .tc main_arg6) : S2.Idx → EReal) = b2)
    (h7 : (W (Proc.devRef .tc main_arg7) : S32x2.Idx → EReal) = w2r) :
    (after (List.drop 38 (ValueP.ops (F := Ideal))) W (Proc.devRef .tc main_v55) : S200000x2.Idx → EReal)
      = outputLayer h (Graph.neighbourSum32 h ei) (Graph.degree ei) w2l b2 w2r := by
  simp only [ValueP.ops, List.drop_succ_cons, List.drop_zero]
  after_results_simp
  simp only [ofBuf_toBuf, ofBuf_v54, toBuf_v55]
  rw [h29, h1, h3, h5, h6, h7]
  refine Eq.trans ?_ (logProbHost_eq dot_S200000x32_S32x2_S200000x2_1_0_0_1_n_n rfl rfl rfl rfl rfl rfl
    h (Graph.neighbourSum32 h ei) (Graph.degree ei) w2l b2 w2r
    Facts₀.bcast_S_S200000 Facts₀.bcast_S200000_S200000x1_0 Facts₀.bcast_S200000x1_S200000x32_0_1
    Facts₀.bcast_S2_S1x2_1 Facts₀.bcast_S1x2_S200000x2_0_1 Facts₀.reducesTo_S200000x2_S200000_d1 Facts₀.h_S_
    Facts₀.bcast_S200000x1_S200000x2_0_1)
  rfl

/-! ## The whole line -/

/-- The reference's result buffer after its 84 operations: the network of the arguments. -/
theorem value :
    (after (ValueP.ops (F := Ideal)) (launchContents m c) (Proc.devRef .tc main_v55) : S200000x2.Idx → EReal)
      = Graph.network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  have hs : after (ValueP.ops (F := Ideal)) (launchContents m c)
      = after (List.drop 38 (ValueP.ops (F := Ideal))) (after (List.take 38 (ValueP.ops (F := Ideal))) (launchContents m c)) := by
    rw [← Cert.AfterAppend.after_append, List.take_append_drop]
  rw [hs]
  exact second_v55 _ _ _ _ _ _ (first_v29 m c) (first_v1 m c) (first_v3 m c) (first_arg5 m c) (first_arg6 m c) (first_arg7 m c)

/-! ## The arguments after the whole line: no operation writes one -/

theorem kept0 : after (ValueP.ops (F := Ideal)) (launchContents m c) (Proc.devRef .tc main_arg0)
    = m ((c.tc : Thread nD τ).loc main_arg0) := by
  simp only [ValueP.ops]
  after_results_simp

theorem kept1 : after (ValueP.ops (F := Ideal)) (launchContents m c) (Proc.devRef .tc main_arg1)
    = m ((c.tc : Thread nD τ).loc main_arg1) := by
  simp only [ValueP.ops]
  after_results_simp

theorem kept2 : after (ValueP.ops (F := Ideal)) (launchContents m c) (Proc.devRef .tc main_arg2)
    = m ((c.tc : Thread nD τ).loc main_arg2) := by
  simp only [ValueP.ops]
  after_results_simp

theorem kept3 : after (ValueP.ops (F := Ideal)) (launchContents m c) (Proc.devRef .tc main_arg3)
    = m ((c.tc : Thread nD τ).loc main_arg3) := by
  simp only [ValueP.ops]
  after_results_simp

theorem kept4 : after (ValueP.ops (F := Ideal)) (launchContents m c) (Proc.devRef .tc main_arg4)
    = m ((c.tc : Thread nD τ).loc main_arg4) := by
  simp only [ValueP.ops]
  after_results_simp

theorem kept5 : after (ValueP.ops (F := Ideal)) (launchContents m c) (Proc.devRef .tc main_arg5)
    = m ((c.tc : Thread nD τ).loc main_arg5) := by
  simp only [ValueP.ops]
  after_results_simp

theorem kept6 : after (ValueP.ops (F := Ideal)) (launchContents m c) (Proc.devRef .tc main_arg6)
    = m ((c.tc : Thread nD τ).loc main_arg6) := by
  simp only [ValueP.ops]
  after_results_simp

theorem kept7 : after (ValueP.ops (F := Ideal)) (launchContents m c) (Proc.devRef .tc main_arg7)
    = m ((c.tc : Thread nD τ).loc main_arg7) := by
  simp only [ValueP.ops]
  after_results_simp

end Cert.ReferenceIdeal.Hand

end
-- ==== Proof.lean ====
/-
  The certificate of a two-layer neighbour-mean graph network: the kernel's program against its jnp reference.

  Both programs gather each edge's source row and scatter-add it at the edge's destination row, count each node's
  incoming edges, and apply two layers. A layer divides the neighbour sums by `max count 1`, multiplies the mean by
  one weight matrix, adds the bias, and adds the node's own features times a second weight matrix; the first layer
  rectifies, the second takes the row-wise log-probabilities. The kernel's program computes each layer in a
  TensorCore region that walks the nodes in blocks of 2000 rows, narrowing its matrix operands on the way; the
  reference computes each layer on whole arrays. At the exact values the narrowing changes nothing, a matrix product
  into a zero accumulator is the host's product, and a row of either layer depends on that row of the node arrays
  only, so a block of rows of the kernel's layer is that block of rows of the reference's. No law beyond
  reassembling the rows is used, and the finiteness of the inputs is never needed.

  The three frames are the generated frame certificates of the two kernel programs and the reference's run; the
  idealization rewrote no operation, so `preserves` asks nothing; `algebraic` pairs the kernel's run with its result
  named (`Cert.KernelIdeal.Named.run`, `Cert.KernelIdeal.Whole.result`) with the reference's run read back
  (`Cert.ReferenceIdeal.Hand.value`): both results are `Cert.Graph.network` of arguments that agree.
-/
import proofs.«102235_j56212531970402_1_alg».proof.Defs
import proofs.«102235_j56212531970402_1_alg».proof.Proof.Gen.Kernel
import proofs.«102235_j56212531970402_1_alg».proof.Proof.Gen.Kernel.Skeleton
import proofs.«102235_j56212531970402_1_alg».proof.Proof.Gen.Kernel.Launch
import proofs.«102235_j56212531970402_1_alg».proof.Proof.Gen.Kernel.Points
import proofs.«102235_j56212531970402_1_alg».proof.Proof.Gen.Kernel.Frame
import proofs.«102235_j56212531970402_1_alg».proof.Proof.Gen.KernelIdeal
import proofs.«102235_j56212531970402_1_alg».proof.Proof.Gen.KernelIdeal.Skeleton
import proofs.«102235_j56212531970402_1_alg».proof.Proof.Gen.KernelIdeal.Launch
import proofs.«102235_j56212531970402_1_alg».proof.Proof.Gen.KernelIdeal.Points
import proofs.«102235_j56212531970402_1_alg».proof.Proof.Gen.KernelIdeal.Frame
import proofs.«102235_j56212531970402_1_alg».proof.Proof.Gen.ReferenceIdeal
import proofs.«102235_j56212531970402_1_alg».proof.Proof.Gen.Pre_finite_inputs
import proofs.«102235_j56212531970402_1_alg».proof.Proof.KernelRun
import proofs.«102235_j56212531970402_1_alg».proof.Proof.KernelValue
import proofs.«102235_j56212531970402_1_alg».proof.Proof.RefRunPatched
import proofs.«102235_j56212531970402_1_alg».proof.Proof.RefValue
import Idealize.ShloMosaic.Adequacy
import Idealize.ShloMosaic.Init

noncomputable section

namespace Cert.Proof

open Idealize.ShloMosaic Idealize.SL.Sem

/-- The kernel's program as printed runs and keeps its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and no operation of its line writes an argument. -/
theorem frame_ri : Cert.frame_ReferenceIdeal := fun m ρ _ =>
  (θ_run Cert.ReferenceIdeal.defs _ _).mono (fun _ h c =>
    ⟨(h c _).trans (Cert.ReferenceIdeal.Hand.kept0 m c), (h c _).trans (Cert.ReferenceIdeal.Hand.kept1 m c),
     (h c _).trans (Cert.ReferenceIdeal.Hand.kept2 m c), (h c _).trans (Cert.ReferenceIdeal.Hand.kept3 m c),
     (h c _).trans (Cert.ReferenceIdeal.Hand.kept4 m c), (h c _).trans (Cert.ReferenceIdeal.Hand.kept5 m c),
     (h c _).trans (Cert.ReferenceIdeal.Hand.kept6 m c), (h c _).trans (Cert.ReferenceIdeal.Hand.kept7 m c)⟩)
    (Cert.ReferenceIdeal.ValueP.run (F := Ideal) m ρ)

/-- The idealization rewrote no operation: nothing is asked. -/
theorem preserves : Cert.preserves_Kernel_KernelIdeal := trivial

/-- At the exact values both programs end with the network of their arguments in their result buffer, and the
    arguments agree. -/
theorem algebraic : Cert.algebraic_KernelIdeal_ReferenceIdeal := by
  intro m ρ m' ρ' _ hagree
  refine ⟨fun c => Cert.Graph.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result m ρ c), (h c).2⟩)
      (Cert.KernelIdeal.Named.run (F := Ideal) m ρ)
  · refine (θ_run Cert.ReferenceIdeal.defs _ _).mono (fun _ h c => ?_)
      (Cert.ReferenceIdeal.ValueP.run (F := Ideal) m' ρ')
    obtain ⟨a0, a1, a2, a3, a4, a5, a6, a7⟩ := hagree c
    refine ⟨((h c _).trans (Cert.ReferenceIdeal.Hand.value m' c)).trans ?_,
      (h c _).trans (Cert.ReferenceIdeal.Hand.kept0 m' c), (h c _).trans (Cert.ReferenceIdeal.Hand.kept1 m' c),
      (h c _).trans (Cert.ReferenceIdeal.Hand.kept2 m' c), (h c _).trans (Cert.ReferenceIdeal.Hand.kept3 m' c),
      (h c _).trans (Cert.ReferenceIdeal.Hand.kept4 m' c), (h c _).trans (Cert.ReferenceIdeal.Hand.kept5 m' c),
      (h c _).trans (Cert.ReferenceIdeal.Hand.kept6 m' c), (h c _).trans (Cert.ReferenceIdeal.Hand.kept7 m' c)⟩
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
